-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S1024x1024 : Shape := ⟨2, ![1024, 1024]⟩
abbrev S1024 : Shape := ⟨1, ![1024]⟩
abbrev S1024x64 : Shape := ⟨2, ![1024, 64]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S1024x1024 .f32) (main_arg9 : FVec F S1024 .f32) (main_arg10 : FVec F S1024 .f32) (main_arg11 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S1024x64 .f32) (main_arg6 : FVec F S1024 .f32) (main_arg7 : FVec F S1024 .f32) (main_arg8 : FVec F S1024x1024 .f32) (main_arg9 : FVec F S1024 .f32) (main_arg10 : FVec F S1024 .f32) (main_arg11 : FVec F S1024 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg5
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S8x4096x1024 .f32) (main_arg1 : IVec S8x4096 32) (main_arg2 : FVec F S1024x1024 .f32) (main_arg3 : FVec F S1024 .f32) (main_arg4 : FVec F S1024x64 .f32) (main_arg5 : FVec F S1024x64 .f32) (main_arg6 : FVec F S1024 .f32) (main_arg7 : FVec F S1024 .f32) (main_arg8 : FVec F S1024x1024 .f32) (main_arg9 : FVec F S1024 .f32) (main_arg10 : FVec F S1024 .f32) (main_arg11 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x64 .f32 := Host.absf main_arg4
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg5 main_arg6 main_arg7 main_arg8 main_arg9 main_arg10 main_arg11 main_v13 main_v16
-- ==== Kernel.lean ====
abbrev S8x4096x1024 : Shape := ⟨3, ![8, 4096, 1024]⟩
abbrev S8x4096 : Shape := ⟨2, ![8, 4096]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S1x1024 : Shape := ⟨2, ![1, 1024]⟩
abbrev S8x4096x1 : Shape := ⟨3, ![8, 4096, 1]⟩
abbrev S1x512x1024 : Shape := ⟨3, ![1, 512, 1024]⟩
abbrev S1x512x1 : Shape := ⟨3, ![1, 512, 1]⟩
abbrev S512x1024 : Shape := ⟨2, ![512, 1024]⟩
abbrev S512x1 : Shape := ⟨2, ![512, 1]⟩
abbrev S512x64 : Shape := ⟨2, ![512, 64]⟩
abbrev S512 : Shape := ⟨1, ![512]⟩

abbrev nBuf : Space → Nat
  | .hbm => 27
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024x1024, .f32⟩
  | .hbm, ⟨3, _⟩ => ⟨S1024, .f32⟩
  | .hbm, ⟨4, _⟩ => ⟨S1024x64, .f32⟩
  | .hbm, ⟨5, _⟩ => ⟨S1024x64, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024x64, .bf16⟩
  | .hbm, ⟨15, _⟩ => ⟨S64x1024, .f32⟩
  | .hbm, ⟨16, _⟩ => ⟨S64x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S8x4096x1, .i32⟩
  | .hbm, ⟨26, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1024x1024, .bf16⟩
  | .local _ .vmem, ⟨5, _⟩ => ⟨S1x1024, .f32⟩
  | .local _ .vmem, ⟨6, _⟩ => ⟨S1024x64, .bf16⟩
  | .local _ .vmem, ⟨7, _⟩ => ⟨S64x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  transposes_S1024x1024_S1024x1024_1_0 : S1024x1024.Transposes [1, 0] S1024x1024
  bitsLt_bf16_f32 : FTy.bits .bf16 < FTy.bits .f32
  transposes_S1024x64_S64x1024_1_0 : S1024x64.Transposes [1, 0] S64x1024
  shapeCasts_S1024_S1x1024 : S1024.ShapeCasts S1x1024
  shapeCasts_S8x4096_S8x4096x1 : S8x4096.ShapeCasts S8x4096x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S512x64_S512 : S512x64.Reduces [1] S512
  shapeCasts_S512_S512x1 : S512.ShapeCasts S512x1
  broadcasts_S512x1_S512x64 : S512x1.Broadcasts S512x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S512x1024_S512 : S512x1024.Reduces [1] S512
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x64_S512x64_1_0_0_1_n_n_wf : DotDims.WF S512x1024 S1024x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x4096x1.size a
  hwx0_1 : ∀ i : grid0.Coords, EltTy.bits .i32 = 32 ∨ (Rect.block (s := S8x4096x1) S1x512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .bf16 = 32 ∨ (Rect.block (s := S64x1024) S64x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x1024.size a ≤ S8x4096x1024.size a
  hwx0_12 : ∀ i : grid0.Coords, EltTy.bits .f32 = 32 ∨ (Rect.block (s := S8x4096x1024) S1x512x1024.size (cc0_transform_12 i) (hinb0_12 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x512x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S1024x1024 : Shape := ⟨2, ![1024, 1024]⟩
abbrev S1024 : Shape := ⟨1, ![1024]⟩
abbrev S1024x64 : Shape := ⟨2, ![1024, 64]⟩
abbrev S1x1x1024 : Shape := ⟨3, ![1, 1, 1024]⟩
abbrev S8x4096x64 : Shape := ⟨3, ![8, 4096, 64]⟩
abbrev S_ : Shape := ⟨0, ![]⟩
abbrev S8x4096x1 : Shape := ⟨3, ![8, 4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024x1024, .f32⟩
  | .hbm, ⟨3, _⟩ => ⟨S1024, .f32⟩
  | .hbm, ⟨4, _⟩ => ⟨S1024x64, .f32⟩
  | .hbm, ⟨5, _⟩ => ⟨S1024x64, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S8x4096x1024, .f32⟩
  | .hbm, ⟨13, _⟩ => ⟨S1x1x1024, .f32⟩
  | .hbm, ⟨14, _⟩ => ⟨S8x4096x1024, .f32⟩
  | .hbm, ⟨15, _⟩ => ⟨S8x4096x1024, .f32⟩
  | .hbm, ⟨16, _⟩ => ⟨S8x4096x64, .f32⟩
  | .hbm, ⟨17, _⟩ => ⟨S_, .f32⟩
  | .hbm, ⟨18, _⟩ => ⟨S8x4096x64, .f32⟩
  | .hbm, ⟨19, _⟩ => ⟨S8x4096x64, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096x1, .f32⟩
  | .hbm, ⟨26, _⟩ => ⟨S8x4096x64, .f32⟩
  | .hbm, ⟨27, _⟩ => ⟨S8x4096x64, .f32⟩
  | .hbm, ⟨28, _⟩ => ⟨S8x4096x64, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x64, .f32⟩
  | .hbm, ⟨33, _⟩ => ⟨S8x4096x64, .f32⟩
  | .hbm, ⟨34, _⟩ => ⟨S8x4096x1, .i32⟩
  | .hbm, ⟨35, _⟩ => ⟨S8x4096x1, .f32⟩
  | .hbm, ⟨36, _⟩ => ⟨S8x4096x64, .f32⟩
  | .hbm, ⟨37, _⟩ => ⟨S8x4096x64, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S_, .f32⟩
  | .hbm, ⟨75, _⟩ => ⟨S8x4096x1024, .f32⟩
  | .hbm, ⟨76, _⟩ => ⟨S8x4096x1024, .i1⟩
  | .hbm, ⟨77, _⟩ => ⟨S_, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S_, .f32⟩
  | .hbm, ⟨83, _⟩ => ⟨S8x4096, .f32⟩
  | .hbm, ⟨84, _⟩ => ⟨S8x4096x1, .f32⟩
  | .hbm, ⟨85, _⟩ => ⟨S_, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S8x4096x1, .f32⟩
  | .hbm, ⟨98, _⟩ => ⟨S8x4096x1024, .f32⟩
  | .hbm, ⟨99, _⟩ => ⟨S8x4096x1024, .f32⟩
  | .hbm, ⟨100, _⟩ => ⟨S1x1x1024, .f32⟩
  | .hbm, ⟨101, _⟩ => ⟨S8x4096x1024, .f32⟩
  | .hbm, ⟨102, _⟩ => ⟨S8x4096x1024, .f32⟩
  | .hbm, ⟨103, _⟩ => ⟨S_, .f32⟩
  | .hbm, ⟨104, _⟩ => ⟨S8x4096x1, .f32⟩
  | .hbm, ⟨105, _⟩ => ⟨S8x4096x1, .f32⟩
  | .hbm, ⟨106, _⟩ => ⟨S8x4096x1024, .f32⟩
  | .hbm, ⟨107, _⟩ => ⟨S8x4096x1024, .f32⟩
  | .hbm, ⟨108, _⟩ => ⟨S1x1x1024, .f32⟩
  | .hbm, ⟨109, _⟩ => ⟨S8x4096x1024, .f32⟩
  | .hbm, ⟨110, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x64 : S_.BroadcastsInDim S8x4096x64 (![] : Fin 0 → Fin S8x4096x64.rank)
  reducesTo_S8x4096x64_S8x4096_d2 : S8x4096x64.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x64_0_1_2 : S8x4096x1.BroadcastsInDim S8x4096x64 (![0, 1, 2] : Fin 3 → Fin S8x4096x64.rank)
  reducesTo_S8x4096x1024_S8x4096_d2 : S8x4096x1024.ReducesTo [2] S8x4096
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x1024_S1024x1024_S8x4096x1024_2_1_01_0_n_n_wf : DotDims.WF S8x4096x1024 S1024x1024 S8x4096x1024 [2] [1] [0, 1] [0] [] []
  dot_S8x4096x1024_S1024x64_S8x4096x64_2_0_01_1_n_n_wf : DotDims.WF S8x4096x1024 S1024x64 S8x4096x64 [2] [0] [0, 1] [1] [] []
  dot_S8x4096x64_S1024x64_S8x4096x1024_2_1_01_0_n_n_wf : DotDims.WF S8x4096x64 S1024x64 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S1024x64_S8x4096x64_2_0_01_1_n_n : DotDims S8x4096x1024 S1024x64 S8x4096x64 where
  lhsContracting := [2]
  rhsContracting := [0]
  lhsNonContracting := [0, 1]
  rhsNonContracting := [1]
  lhsBatch := []
  rhsBatch := []
  wf := dot_S8x4096x1024_S1024x64_S8x4096x64_2_0_01_1_n_n_wf
def dot_S8x4096x64_S1024x64_S8x4096x1024_2_1_01_0_n_n : DotDims S8x4096x64 S1024x64 S8x4096x1024 where
  lhsContracting := [2]
  rhsContracting := [1]
  lhsNonContracting := [0, 1]
  rhsNonContracting := [0]
  lhsBatch := []
  rhsBatch := []
  wf := dot_S8x4096x64_S1024x64_S8x4096x1024_2_1_01_0_n_n_wf

class Facts : Prop extends Facts₀ where

variable [Facts]
-- ==== Proof.Spec.lean ====
/-
  The layer both programs compute, one token row at a time, on the extended reals.

  A token row x (1024 entries) with its mask value mk is sent through
    Q   = x · W_Qᵀ + b_Q                                   (a 1024 × 1024 projection)
    S   = (Q · C_K) / 32                                    (64 landmark scores)
    A   = softmax(S) · mk                                   (softmax over the 64 landmarks, stabilised by the row maximum)
    y   = x + A · C_Vᵀ                                      (residual)
    h   = LN(y; g1, be1)                                    (layer norm with the unbiased deviation, std + eps below)
    o   = h + leaky_relu(h · Wcᵀ + bc)                      (slope 0.01)
    out = LN(o; g2, be2).
  No row looks at another row, so the whole array result is this function applied at every (b, l).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An f32 word read as an extended real. -/
abbrev lit (b : BitVec 32) : EReal := Ideal.ofBits .f32 b

/-- A linear map with bias: entry e is the inner product of the row with row e of the weight, plus the bias. -/
def proj {n k : ℕ} (W : Fin n → Fin k → EReal) (bias : Fin n → EReal) (x : Fin k → EReal) (e : Fin n) : EReal :=
  (∑ d : Fin k, x d * W e d) + bias e

/-- Landmark scores: the inner product of the query with column a of C_K, divided by 32 = √1024. -/
def scores (q : Fin 1024 → EReal) (CK : Fin 1024 → Fin 64 → EReal) (a : Fin 64) : EReal :=
  Ideal.div (∑ d : Fin 1024, q d * CK d a) (lit 0x42000000#32)

/-- The largest of 64 scores (the fold starts at −∞, and is compared once more with −∞). -/
def rowMax (s : Fin 64 → EReal) : EReal :=
  max (lit 0xFF800000#32) ((Finset.univ : Finset (Fin 64)).fold max (lit 0xFF800000#32) s)

/-- The shifted exponentials of the scores. -/
def expShift (s : Fin 64 → EReal) (a : Fin 64) : EReal := Ideal.exp (s a - rowMax s)

/-- Softmax over the 64 landmarks, times the row's mask value. -/
def attnWeights (s : Fin 64 → EReal) (mk : EReal) (a : Fin 64) : EReal :=
  Ideal.div (expShift s a) (∑ k : Fin 64, expShift s k) * mk

/-- The attention read-out: entry d is the inner product of the weights with row d of C_V. -/
def readout (A : Fin 64 → EReal) (CV : Fin 1024 → Fin 64 → EReal) (d : Fin 1024) : EReal :=
  ∑ a : Fin 64, A a * CV d a

/-- The mean of a row of 1024 entries. -/
def mean (y : Fin 1024 → EReal) : EReal := Ideal.div (∑ k : Fin 1024, y k) (lit 0x44800000#32)

/-- The unbiased deviation: the root of the sum of squared differences from the mean over 1023. -/
def dev (y : Fin 1024 → EReal) : EReal :=
  Ideal.sqrt (Ideal.div (∑ k : Fin 1024, (y k - mean y) * (y k - mean y)) (lit 0x447FC000#32))

/-- Layer norm as the module writes it: g · (y − mean) / (std + 1e-6) + be. -/
def layerNorm (y g be : Fin 1024 → EReal) (e : Fin 1024) : EReal :=
  Ideal.div (g e * (y e - mean y)) (dev y + lit 0x358637BD#32) + be e

/-- Leaky ReLU with slope 0.01. -/
def leaky (v : EReal) : EReal :=
  Scalar.select (FloatOps.cmpf (F := Ideal) (φ := .f32) .oge v (lit 0x00000000#32)) v (lit 0x3C23D70A#32 * v)

/-- The whole layer on one token row. -/
def rowOut (x : Fin 1024 → EReal) (mk : EReal) (WQ : Fin 1024 → Fin 1024 → EReal) (bQ : Fin 1024 → EReal)
    (CK CV : Fin 1024 → Fin 64 → EReal) (g1 be1 : Fin 1024 → EReal) (Wc : Fin 1024 → Fin 1024 → EReal)
    (bc g2 be2 : Fin 1024 → EReal) : Fin 1024 → EReal :=
  let y : Fin 1024 → EReal := fun d => x d + readout (attnWeights (scores (proj WQ bQ x) CK) mk) CV d
  let h : Fin 1024 → EReal := layerNorm y g1 be1
  let o : Fin 1024 → EReal := fun e => h e + leaky (proj Wc bc h e)
  layerNorm o g2 be2

abbrev SX : Shape := ⟨3, ![8, 4096, 1024]⟩
abbrev SM : Shape := ⟨2, ![8, 4096]⟩
abbrev SW : Shape := ⟨2, ![1024, 1024]⟩
abbrev SC : Shape := ⟨2, ![1024, 64]⟩
abbrev SV : Shape := ⟨1, ![1024]⟩

/-- The layer on the whole arrays: entry (b, l, e) is entry e of the layer applied to token row (b, l). -/
def G (x : SX.Idx → EReal) (mask : SM.Idx → BitVec 32) (WQ : SW.Idx → EReal) (bQ : SV.Idx → EReal)
    (CK CV : SC.Idx → EReal) (g1 be1 : SV.Idx → EReal) (Wc : SW.Idx → EReal) (bc g2 be2 : SV.Idx → EReal) :
    SX.Idx → EReal := fun i =>
  rowOut (fun d => x (ix3 (n0 := 8) (n1 := 4096) (i 0) (i 1) d))
    (FloatOps.sitofp (F := Ideal) .f32 (mask (ix2 (n0 := 8) (n1 := 4096) (i 0) (i 1))))
    (fun e d => WQ (ix2 e d)) (fun e => bQ (ix1 e)) (fun d a => CK (ix2 d a)) (fun d a => CV (ix2 d a))
    (fun e => g1 (ix1 e)) (fun e => be1 (ix1 e)) (fun e d => Wc (ix2 e d)) (fun e => bc (ix1 e))
    (fun e => g2 (ix1 e)) (fun e => be2 (ix1 e)) (i 2)

/-- The layer at coordinates. -/
theorem G_ix3 (x : SX.Idx → EReal) (mask : SM.Idx → BitVec 32) (WQ : SW.Idx → EReal) (bQ : SV.Idx → EReal)
    (CK CV : SC.Idx → EReal) (g1 be1 : SV.Idx → EReal) (Wc : SW.Idx → EReal) (bc g2 be2 : SV.Idx → EReal)
    (b : Fin 8) (l : Fin 4096) (e : Fin 1024) :
    G x mask WQ bQ CK CV g1 be1 Wc bc g2 be2 (ix3 b l e)
      = rowOut (fun d => x (ix3 b l d)) (FloatOps.sitofp (F := Ideal) .f32 (mask (ix2 b l)))
          (fun e d => WQ (ix2 e d)) (fun e => bQ (ix1 e)) (fun d a => CK (ix2 d a)) (fun d a => CV (ix2 d a))
          (fun e => g1 (ix1 e)) (fun e => be1 (ix1 e)) (fun e d => Wc (ix2 e d)) (fun e => bc (ix1 e))
          (fun e => g2 (ix1 e)) (fun e => be2 (ix1 e)) e := rfl

/-- Multiplying by the word of 1/32 is dividing by the word of 32, on every extended real. -/
theorem mul_inv32 (v : EReal) : v * lit 0x3D000000#32 = Ideal.div v (lit 0x42000000#32) := by
  have h32 : lit 0x42000000#32 = ((32 : ℝ) : EReal) := by
    simp [lit, Ideal.ofBits, Ideal.ieee]
    rw [← EReal.coe_mul]
    exact congrArg _ (by norm_num)
  have hinv : lit 0x3D000000#32 = ((1 / 32 : ℝ) : EReal) := by
    simp [lit, Ideal.ofBits, Ideal.ieee]
    rw [← EReal.coe_mul]
    exact congrArg _ (by norm_num)
  rw [h32, hinv, Ideal.div_coe (by norm_num : (32 : ℝ) ≠ 0)]

end Cert.Spec

end
-- ==== Proof.KernelArrays.lean ====
/-
  The arrays the kernel's windows read, as the host operations before the launch leave them: x and the twelve
  parameters reach the launch untouched, transposed (W_Q, C_V, Wc), viewed as one row (the six vectors) or with a
  unit axis added (the mask); the conversions to the narrow float format are the identity on the extended reals.
-/
import proofs.«128733_j28432683499590_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KArr

open Cert.KernelIdeal Cert.KernelIdeal.Gen

variable (m : (ℓ : Loc nD τ sig) → Buf (Elt Ideal) ℓ)

/-- W_Q reaches the launch transposed. -/
theorem V_v1 (c : Dev nD) : (V m c main_v1 : S1024x1024.Idx → EReal)
    = truncf (F := Ideal) .bf16 (transpose S1024x1024 [1, 0] (m ((c : Thread nD τ).loc main_arg2)) transposes_S1024x1024_S1024x1024_1_0) bitsLt_bf16_f32 := by
  dsimp only [Gen.V, Gen.hostOps0]
  after_results

/-- C_K reaches the launch as it is. -/
theorem V_v2 (c : Dev nD) : (V m c main_v2 : S1024x64.Idx → EReal)
    = truncf (F := Ideal) .bf16 (m ((c : Thread nD τ).loc main_arg4)) bitsLt_bf16_f32 := by
  dsimp only [Gen.V, Gen.hostOps0]
  after_results

/-- C_V reaches the launch transposed. -/
theorem V_v4 (c : Dev nD) : (V m c main_v4 : S64x1024.Idx → EReal)
    = truncf (F := Ideal) .bf16 (transpose S64x1024 [1, 0] (m ((c : Thread nD τ).loc main_arg5)) transposes_S1024x64_S64x1024_1_0) bitsLt_bf16_f32 := by
  dsimp only [Gen.V, Gen.hostOps0]
  after_results

/-- Wc reaches the launch transposed. -/
theorem V_v6 (c : Dev nD) : (V m c main_v6 : S1024x1024.Idx → EReal)
    = truncf (F := Ideal) .bf16 (transpose S1024x1024 [1, 0] (m ((c : Thread nD τ).loc main_arg8)) transposes_S1024x1024_S1024x1024_1_0) bitsLt_bf16_f32 := by
  dsimp only [Gen.V, Gen.hostOps0]
  after_results

/-- b_Q reaches the launch as one row. -/
theorem V_v7 (c : Dev nD) : (V m c main_v7 : S1x1024.Idx → EReal)
    = shapeCast S1x1024 (m ((c : Thread nD τ).loc main_arg3)) shapeCasts_S1024_S1x1024 := by
  dsimp only [Gen.V, Gen.hostOps0]
  after_results
  rfl

/-- g1 reaches the launch as one row. -/
theorem V_v8 (c : Dev nD) : (V m c main_v8 : S1x1024.Idx → EReal)
    = shapeCast S1x1024 (m ((c : Thread nD τ).loc main_arg6)) shapeCasts_S1024_S1x1024 := by
  dsimp only [Gen.V, Gen.hostOps0]
  after_results
  rfl

/-- be1 reaches the launch as one row. -/
theorem V_v9 (c : Dev nD) : (V m c main_v9 : S1x1024.Idx → EReal)
    = shapeCast S1x1024 (m ((c : Thread nD τ).loc main_arg7)) shapeCasts_S1024_S1x1024 := by
  dsimp only [Gen.V, Gen.hostOps0]
  after_results
  rfl

/-- bc reaches the launch as one row. -/
theorem V_v10 (c : Dev nD) : (V m c main_v10 : S1x1024.Idx → EReal)
    = shapeCast S1x1024 (m ((c : Thread nD τ).loc main_arg9)) shapeCasts_S1024_S1x1024 := by
  dsimp only [Gen.V, Gen.hostOps0]
  after_results
  rfl

/-- g2 reaches the launch as one row. -/
theorem V_v11 (c : Dev nD) : (V m c main_v11 : S1x1024.Idx → EReal)
    = shapeCast S1x1024 (m ((c : Thread nD τ).loc main_arg10)) shapeCasts_S1024_S1x1024 := by
  dsimp only [Gen.V, Gen.hostOps0]
  after_results
  rfl

/-- be2 reaches the launch as one row. -/
theorem V_v12 (c : Dev nD) : (V m c main_v12 : S1x1024.Idx → EReal)
    = shapeCast S1x1024 (m ((c : Thread nD τ).loc main_arg11)) shapeCasts_S1024_S1x1024 := by
  dsimp only [Gen.V, Gen.hostOps0]
  after_results
  rfl

/-- The mask reaches the launch with a unit axis added. -/
theorem V_v13 (c : Dev nD) : (V m c main_v13 : S8x4096x1.Idx → BitVec 32)
    = shapeCast S8x4096x1 (m ((c : Thread nD τ).loc main_arg1)) shapeCasts_S8x4096_S8x4096x1 := by
  dsimp only [Gen.V, Gen.hostOps0]
  after_results
  rfl

/-! ## Where a block's entries sit in its array

The x, mask and output windows move together over the grid: point t's block is batch row `win0_12.index t 0` and token
rows `512 · win0_12.index t 1 …`; every parameter window stays at block 0, its whole array. -/

/-- The index maps over the 64 grid points (decided). -/
theorem idx_facts : ∀ t : Fin cfg0.N,
    win0_0.index t (0 : Fin 3) = win0_12.index t (0 : Fin 3) ∧ win0_0.index t (1 : Fin 3) = win0_12.index t (1 : Fin 3)
    ∧ win0_0.index t (2 : Fin 3) = 0
    ∧ win0_1.index t (0 : Fin 3) = win0_12.index t (0 : Fin 3) ∧ win0_1.index t (1 : Fin 3) = win0_12.index t (1 : Fin 3)
    ∧ win0_1.index t (2 : Fin 3) = 0
    ∧ win0_12.index t (0 : Fin 3) ≤ 7 ∧ win0_12.index t (1 : Fin 3) ≤ 7 ∧ win0_12.index t (2 : Fin 3) = 0 :=
  (by decide +kernel : ∀ t : Fin grid0.N, _)

/-- Every parameter window sits at block 0 at every point (decided). -/
theorem idx_zero : ∀ t : Fin cfg0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0) :=
  (by decide +kernel : ∀ t : Fin grid0.N, _)

/-- The batch row of point t's block. -/
def bOf (t : Fin cfg0.N) : Fin 8 := ⟨win0_12.index t (0 : Fin 3), by have := (idx_facts t).2.2.2.2.2.2.1; omega⟩

/-- The token row of row p of point t's block. -/
def lOf (t : Fin cfg0.N) (p : Fin 512) : Fin 4096 :=
  ⟨win0_12.index t (1 : Fin 3) * 512 + p.val, by have := (idx_facts t).2.2.2.2.2.2.2.1; have := p.isLt; omega⟩

/-- Entry (0, p, e) of point t's output block is entry (bOf t, lOf t p, e) of the result array. -/
theorem emb12 (t : Fin cfg0.N) (p : Fin 512) (e : Fin 1024) :
    ((cfg0.win 12).blk t).view.emb (ix3 (0 : Fin 1) p e) = ix3 (bOf t) (lOf t p) e := by
  obtain ⟨-, -, -, -, -, -, -, -, h2⟩ := idx_facts t
  funext a
  apply Fin.ext
  match a with
  | ⟨0, _⟩ => show win0_12.index t (0 : Fin 3) * 1 + 1 * 0 = win0_12.index t (0 : Fin 3); omega
  | ⟨1, _⟩ => show win0_12.index t (1 : Fin 3) * 512 + 1 * p.val = win0_12.index t (1 : Fin 3) * 512 + p.val; omega
  | ⟨2, _⟩ => show win0_12.index t (2 : Fin 3) * 1024 + 1 * e.val = e.val; omega

/-- Row p of point t's x block is token row (bOf t, lOf t p) of x. -/
theorem iblk0_apply (c : Dev nD) (t : Fin cfg0.N) (p : Fin 512) (d : Fin 1024) :
    (iblk m c 0 t : Vec Ideal S1x512x1024 .f32) (ix3 (0 : Fin 1) p d)
      = (m ((c : Thread nD τ).loc main_arg0) : S8x4096x1024.Idx → EReal) (ix3 (bOf t) (lOf t p) d) := by
  obtain ⟨h0, h1, h2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = win0_12.index t (0 : Fin 3); omega
  | ⟨1, _⟩ => show win0_0.index t (1 : Fin 3) * 512 + 1 * p.val = win0_12.index t (1 : Fin 3) * 512 + p.val; omega
  | ⟨2, _⟩ => show win0_0.index t (2 : Fin 3) * 1024 + 1 * d.val = d.val; omega

/-- Row p of point t's mask block is the mask at (bOf t, lOf t p). -/
theorem iblk1_apply (c : Dev nD) (t : Fin cfg0.N) (p : Fin 512) :
    (iblk m c 1 t : Vec Ideal S1x512x1 .i32) (ix3 (0 : Fin 1) p (0 : Fin 1))
      = (m ((c : Thread nD τ).loc main_arg1) : S8x4096.Idx → BitVec 32) (ix2 (bOf t) (lOf t p)) := by
  obtain ⟨-, -, -, h0, h1, h2, -⟩ := idx_facts t
  unfold iblk
  rw [View.read_apply]
  show V m c main_v13 _ = _
  rw [V_v13]
  refine shapeCast_apply _ _ _ _ ?_
  show ((⟨2, ![8, 4096]⟩ : Shape).rowMajor (ix2 (bOf t) (lOf t p))).val = ((⟨3, ![8, 4096, 1]⟩ : Shape).rowMajor _).val
  rw [Shape.rowMajor_val_two, Shape.rowMajor_val_three]
  show (bOf t).val * 4096 + (lOf t p).val
    = ((win0_1.index t (0 : Fin 3) * 1 + 1 * 0) * 4096 + (win0_1.index t (1 : Fin 3) * 512 + 1 * p.val)) * 1
      + (win0_1.index t (2 : Fin 3) * 1 + 1 * 0)
  show win0_12.index t (0 : Fin 3) * 4096 + (win0_12.index t (1 : Fin 3) * 512 + p.val) = _
  omega

/-- Entry (d, e) of the W_Q window's block is W_Q at (e, d). -/
theorem iblk2_apply (c : Dev nD) (t : Fin cfg0.N) (r : Fin 1024) (q : Fin 1024) :
    (iblk m c 2 t : Vec Ideal S1024x1024 .bf16) (ix2 r q)
      = (m ((c : Thread nD τ).loc main_arg2) : S1024x1024.Idx → EReal) (ix2 q r) := by
  obtain ⟨h0, h1⟩ := (idx_zero t).1
  unfold iblk
  rw [View.read_apply]
  show V m c main_v1 _ = _
  rw [V_v1]
  show transpose S1024x1024 [1, 0] _ transposes_S1024x1024_S1024x1024_1_0 _ = _
  refine transpose_apply _ _ _ _ _ fun b => ?_
  match b with
  | ⟨0, _⟩ => show r.val = win0_2.index t (0 : Fin 2) * 1024 + 1 * r.val; omega
  | ⟨1, _⟩ => show q.val = win0_2.index t (1 : Fin 2) * 1024 + 1 * q.val; omega

/-- Entry (a, d) of the C_V window's block is C_V at (d, a). -/
theorem iblk5_apply (c : Dev nD) (t : Fin cfg0.N) (r : Fin 64) (q : Fin 1024) :
    (iblk m c 5 t : Vec Ideal S64x1024 .bf16) (ix2 r q)
      = (m ((c : Thread nD τ).loc main_arg5) : S1024x64.Idx → EReal) (ix2 q r) := by
  obtain ⟨h0, h1⟩ := (idx_zero t).2.2.2.1
  unfold iblk
  rw [View.read_apply]
  show V m c main_v4 _ = _
  rw [V_v4]
  show transpose S64x1024 [1, 0] _ transposes_S1024x64_S64x1024_1_0 _ = _
  refine transpose_apply _ _ _ _ _ fun b => ?_
  match b with
  | ⟨0, _⟩ => show r.val = win0_5.index t (0 : Fin 2) * 64 + 1 * r.val; omega
  | ⟨1, _⟩ => show q.val = win0_5.index t (1 : Fin 2) * 1024 + 1 * q.val; omega

/-- Entry (d, e) of the Wc window's block is Wc at (e, d). -/
theorem iblk8_apply (c : Dev nD) (t : Fin cfg0.N) (r : Fin 1024) (q : Fin 1024) :
    (iblk m c 8 t : Vec Ideal S1024x1024 .bf16) (ix2 r q)
      = (m ((c : Thread nD τ).loc main_arg8) : S1024x1024.Idx → EReal) (ix2 q r) := by
  obtain ⟨h0, h1⟩ := (idx_zero t).2.2.2.2.2.2.1
  unfold iblk
  rw [View.read_apply]
  show V m c main_v6 _ = _
  rw [V_v6]
  show transpose S1024x1024 [1, 0] _ transposes_S1024x1024_S1024x1024_1_0 _ = _
  refine transpose_apply _ _ _ _ _ fun b => ?_
  match b with
  | ⟨0, _⟩ => show r.val = win0_8.index t (0 : Fin 2) * 1024 + 1 * r.val; omega
  | ⟨1, _⟩ => show q.val = win0_8.index t (1 : Fin 2) * 1024 + 1 * q.val; omega

/-- Entry (d, a) of the C_K window's block is C_K at (d, a). -/
theorem iblk4_apply (c : Dev nD) (t : Fin cfg0.N) (r : Fin 1024) (q : Fin 64) :
    (iblk m c 4 t : Vec Ideal S1024x64 .bf16) (ix2 r q)
      = (m ((c : Thread nD τ).loc main_arg4) : S1024x64.Idx → EReal) (ix2 r q) := by
  obtain ⟨h0, h1⟩ := (idx_zero t).2.2.1
  unfold iblk
  rw [View.read_apply]
  show V m c main_v2 _ = _
  rw [V_v2]
  show (m ((c : Thread nD τ).loc main_arg4) : S1024x64.Idx → EReal) _ = _
  refine congrArg _ (funext fun a => Fin.ext ?_)
  match a with
  | ⟨0, _⟩ => show win0_4.index t (0 : Fin 2) * 1024 + 1 * r.val = r.val; omega
  | ⟨1, _⟩ => show win0_4.index t (1 : Fin 2) * 64 + 1 * q.val = q.val; omega

/-- Entry (0, e) of the b_Q window's block is b_Q at e. -/
theorem iblk3_apply (c : Dev nD) (t : Fin cfg0.N) (e : Fin 1024) :
    (iblk m c 3 t : Vec Ideal S1x1024 .f32) (ix2 (0 : Fin 1) e)
      = (m ((c : Thread nD τ).loc main_arg3) : S1024.Idx → EReal) (ix1 e) := by
  obtain ⟨h0, h1⟩ := (idx_zero t).2.1
  unfold iblk
  rw [View.read_apply]
  show V m c main_v7 _ = _
  rw [V_v7]
  refine shapeCast_apply _ _ _ _ ?_
  show ((⟨1, ![1024]⟩ : Shape).rowMajor (ix1 e)).val = ((⟨2, ![1, 1024]⟩ : Shape).rowMajor _).val
  rw [Shape.rowMajor_val_one, Shape.rowMajor_val_two]
  show e.val = (win0_3.index t (0 : Fin 2) * 1 + 1 * 0) * 1024 + (win0_3.index t (1 : Fin 2) * 1024 + 1 * e.val)
  omega

/-- Entry (0, e) of the g1 window's block is g1 at e. -/
theorem iblk6_apply (c : Dev nD) (t : Fin cfg0.N) (e : Fin 1024) :
    (iblk m c 6 t : Vec Ideal S1x1024 .f32) (ix2 (0 : Fin 1) e)
      = (m ((c : Thread nD τ).loc main_arg6) : S1024.Idx → EReal) (ix1 e) := by
  obtain ⟨h0, h1⟩ := (idx_zero t).2.2.2.2.1
  unfold iblk
  rw [View.read_apply]
  show V m c main_v8 _ = _
  rw [V_v8]
  refine shapeCast_apply _ _ _ _ ?_
  show ((⟨1, ![1024]⟩ : Shape).rowMajor (ix1 e)).val = ((⟨2, ![1, 1024]⟩ : Shape).rowMajor _).val
  rw [Shape.rowMajor_val_one, Shape.rowMajor_val_two]
  show e.val = (win0_6.index t (0 : Fin 2) * 1 + 1 * 0) * 1024 + (win0_6.index t (1 : Fin 2) * 1024 + 1 * e.val)
  omega

/-- Entry (0, e) of the be1 window's block is be1 at e. -/
theorem iblk7_apply (c : Dev nD) (t : Fin cfg0.N) (e : Fin 1024) :
    (iblk m c 7 t : Vec Ideal S1x1024 .f32) (ix2 (0 : Fin 1) e)
      = (m ((c : Thread nD τ).loc main_arg7) : S1024.Idx → EReal) (ix1 e) := by
  obtain ⟨h0, h1⟩ := (idx_zero t).2.2.2.2.2.1
  unfold iblk
  rw [View.read_apply]
  show V m c main_v9 _ = _
  rw [V_v9]
  refine shapeCast_apply _ _ _ _ ?_
  show ((⟨1, ![1024]⟩ : Shape).rowMajor (ix1 e)).val = ((⟨2, ![1, 1024]⟩ : Shape).rowMajor _).val
  rw [Shape.rowMajor_val_one, Shape.rowMajor_val_two]
  show e.val = (win0_7.index t (0 : Fin 2) * 1 + 1 * 0) * 1024 + (win0_7.index t (1 : Fin 2) * 1024 + 1 * e.val)
  omega

/-- Entry (0, e) of the bc window's block is bc at e. -/
theorem iblk9_apply (c : Dev nD) (t : Fin cfg0.N) (e : Fin 1024) :
    (iblk m c 9 t : Vec Ideal S1x1024 .f32) (ix2 (0 : Fin 1) e)
      = (m ((c : Thread nD τ).loc main_arg9) : S1024.Idx → EReal) (ix1 e) := by
  obtain ⟨h0, h1⟩ := (idx_zero t).2.2.2.2.2.2.2.1
  unfold iblk
  rw [View.read_apply]
  show V m c main_v10 _ = _
  rw [V_v10]
  refine shapeCast_apply _ _ _ _ ?_
  show ((⟨1, ![1024]⟩ : Shape).rowMajor (ix1 e)).val = ((⟨2, ![1, 1024]⟩ : Shape).rowMajor _).val
  rw [Shape.rowMajor_val_one, Shape.rowMajor_val_two]
  show e.val = (win0_9.index t (0 : Fin 2) * 1 + 1 * 0) * 1024 + (win0_9.index t (1 : Fin 2) * 1024 + 1 * e.val)
  omega

/-- Entry (0, e) of the g2 window's block is g2 at e. -/
theorem iblk10_apply (c : Dev nD) (t : Fin cfg0.N) (e : Fin 1024) :
    (iblk m c 10 t : Vec Ideal S1x1024 .f32) (ix2 (0 : Fin 1) e)
      = (m ((c : Thread nD τ).loc main_arg10) : S1024.Idx → EReal) (ix1 e) := by
  obtain ⟨h0, h1⟩ := (idx_zero t).2.2.2.2.2.2.2.2.1
  unfold iblk
  rw [View.read_apply]
  show V m c main_v11 _ = _
  rw [V_v11]
  refine shapeCast_apply _ _ _ _ ?_
  show ((⟨1, ![1024]⟩ : Shape).rowMajor (ix1 e)).val = ((⟨2, ![1, 1024]⟩ : Shape).rowMajor _).val
  rw [Shape.rowMajor_val_one, Shape.rowMajor_val_two]
  show e.val = (win0_10.index t (0 : Fin 2) * 1 + 1 * 0) * 1024 + (win0_10.index t (1 : Fin 2) * 1024 + 1 * e.val)
  omega

/-- Entry (0, e) of the be2 window's block is be2 at e. -/
theorem iblk11_apply (c : Dev nD) (t : Fin cfg0.N) (e : Fin 1024) :
    (iblk m c 11 t : Vec Ideal S1x1024 .f32) (ix2 (0 : Fin 1) e)
      = (m ((c : Thread nD τ).loc main_arg11) : S1024.Idx → EReal) (ix1 e) := by
  obtain ⟨h0, h1⟩ := (idx_zero t).2.2.2.2.2.2.2.2.2
  unfold iblk
  rw [View.read_apply]
  show V m c main_v12 _ = _
  rw [V_v12]
  refine shapeCast_apply _ _ _ _ ?_
  show ((⟨1, ![1024]⟩ : Shape).rowMajor (ix1 e)).val = ((⟨2, ![1, 1024]⟩ : Shape).rowMajor _).val
  rw [Shape.rowMajor_val_one, Shape.rowMajor_val_two]
  show e.val = (win0_11.index t (0 : Fin 2) * 1 + 1 * 0) * 1024 + (win0_11.index t (1 : Fin 2) * 1024 + 1 * e.val)
  omega

end Cert.KernelIdeal.KArr

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.KPayOps.lean ====
/-
  The non-pointwise operations of the kernel body, read at coordinates over the body's literal shapes: a row sum or row
  maximum laid out as a column, a column spread along its rows, a row spread down the rows, the three matrix
  products into a zero accumulator, the block's leading unit axis, and the two pointwise functions the
  coordinate vocabulary does not list (square root, exponential).
-/
import proofs.«128733_j28432683499590_1_alg».proof.Proof.Gen.KernelIdeal.Skeleton
import proofs.«128733_j28432683499590_1_alg».proof.Proof.LibMatmul
import proofs.«128733_j28432683499590_1_alg».proof.Proof.LibRowReduce
import proofs.«128733_j28432683499590_1_alg».proof.Proof.LibColumns
import Idealize.ShloMosaic.Lib.ValueLayout

noncomputable section

open scoped BigOperators

namespace Cert.KernelIdeal.KPay

open Cert.KernelIdeal Cert.KernelIdeal.Gen Idealize.ShloMosaic Idealize.ShloMosaic.ValueIdx

/-- A square root at an index is the square root of the element. -/
theorem sqrt_apply {s : Shape} {φ : FTy} (a : FVec Ideal s φ) (i : s.Idx) : sqrt a i = Ideal.sqrt (a i) := rfl
/-- An exponential at an index is the exponential of the element. -/
theorem exp_apply {s : Shape} {φ : FTy} (a : FVec Ideal s φ) (i : s.Idx) : exp a i = Ideal.exp (a i) := rfl
/-- A scalar literal is the extended real its word denotes. -/
theorem scalar_ofBits (b : BitVec 32) : Scalar.ofBits (F := Ideal) .f32 b = Ideal.ofBits .f32 b := rfl

/-- The sum along a row of 1024 entries, laid out as a column entry. -/
theorem rowsum1024 (v : FVec Ideal S512x1024 .f32) (p : Fin 512) (u : Fin 1) :
    shapeCast S512x1 (multiReduction .add [1] S512 v 0x00000000#32 reduces_S512x1024_S512 (.inl rfl) rfl)
        shapeCasts_S512_S512x1 (ix2 p u)
      = ∑ k : Fin 1024, v (ix2 p k) :=
  (shapeCast_a_a1_apply _ shapeCasts_S512_S512x1 p u).trans
    (Cert.LibRowReduce.multiReduction_add_rows v 0x00000000#32 reduces_S512x1024_S512 (.inl rfl) rfl p)

/-- The sum along a row of 64 entries, laid out as a column entry. -/
theorem rowsum64 (v : FVec Ideal S512x64 .f32) (p : Fin 512) (u : Fin 1) :
    shapeCast S512x1 (multiReduction .add [1] S512 v 0x00000000#32 reduces_S512x64_S512 (.inl rfl) rfl)
        shapeCasts_S512_S512x1 (ix2 p u)
      = ∑ k : Fin 64, v (ix2 p k) :=
  (shapeCast_a_a1_apply _ shapeCasts_S512_S512x1 p u).trans
    (Cert.LibRowReduce.multiReduction_add_rows v 0x00000000#32 reduces_S512x64_S512 (.inl rfl) rfl p)

/-- The maximum along a row of 64 entries: the fold of max from −∞. -/
theorem rowmax64 (v : FVec Ideal S512x64 .f32) (p : Fin 512) :
    multiReduction .maximumf [1] S512 v 0xFF800000#32 reduces_S512x64_S512 (.inl rfl) rfl (ix1 p)
      = (Finset.univ : Finset (Fin 64)).fold max (Ideal.ofBits .f32 0xFF800000#32) (fun k => v (ix2 p k)) :=
  Cert.LibRowReduce.multiReduction_max_rows v 0xFF800000#32 reduces_S512x64_S512 (.inl rfl) rfl p

/-- The body's sum along the rows of a [512,1024] block, one value per row. -/
def rsum1024 (v : FVec Ideal S512x1024 .f32) : FVec Ideal S512 .f32 :=
  multiReduction .add [1] S512 v 0x00000000#32 reduces_S512x1024_S512 (.inl rfl) rfl

/-- The body's sum along the rows of a [512,64] block, one value per row. -/
def rsum64 (v : FVec Ideal S512x64 .f32) : FVec Ideal S512 .f32 :=
  multiReduction .add [1] S512 v 0x00000000#32 reduces_S512x64_S512 (.inl rfl) rfl

/-- The body's maximum along the rows of a [512,64] block, one value per row. -/
def rmax64 (v : FVec Ideal S512x64 .f32) : FVec Ideal S512 .f32 :=
  multiReduction .maximumf [1] S512 v 0xFF800000#32 reduces_S512x64_S512 (.inl rfl) rfl

/-- Row p's sum of 1024 entries. -/
theorem rsum1024_apply (v : FVec Ideal S512x1024 .f32) (p : Fin 512) : rsum1024 v (ix1 p) = ∑ k : Fin 1024, v (ix2 p k) :=
  Cert.LibRowReduce.multiReduction_add_rows v 0x00000000#32 reduces_S512x1024_S512 (.inl rfl) rfl p

/-- Row p's sum of 64 entries. -/
theorem rsum64_apply (v : FVec Ideal S512x64 .f32) (p : Fin 512) : rsum64 v (ix1 p) = ∑ k : Fin 64, v (ix2 p k) :=
  Cert.LibRowReduce.multiReduction_add_rows v 0x00000000#32 reduces_S512x64_S512 (.inl rfl) rfl p

/-- Row p's maximum of 64 entries: the fold of max from −∞. -/
theorem rmax64_apply (v : FVec Ideal S512x64 .f32) (p : Fin 512) :
    rmax64 v (ix1 p)
      = (Finset.univ : Finset (Fin 64)).fold max (Ideal.ofBits .f32 0xFF800000#32) (fun k => v (ix2 p k)) :=
  Cert.LibRowReduce.multiReduction_max_rows v 0xFF800000#32 reduces_S512x64_S512 (.inl rfl) rfl p

/-- A vector of 512 entries as a column. -/
theorem col512 {α : Type} (x : S512.Idx → α) (p : Fin 512) (u : Fin 1) :
    shapeCast S512x1 x shapeCasts_S512_S512x1 (ix2 p u) = x (ix1 p) :=
  shapeCast_a_a1_apply x shapeCasts_S512_S512x1 p u

/-- A column spread along rows of 1024 entries. -/
theorem bcol1024 {α : Type} (c : S512x1.Idx → α) (p : Fin 512) (e : Fin 1024) :
    broadcastTo S512x1024 c broadcasts_S512x1_S512x1024 (ix2 p e) = c (ix2 p (0 : Fin 1)) :=
  broadcastTo_a1_ab_apply c broadcasts_S512x1_S512x1024 p e

/-- A column spread along rows of 64 entries. -/
theorem bcol64 {α : Type} (c : S512x1.Idx → α) (p : Fin 512) (a : Fin 64) :
    broadcastTo S512x64 c broadcasts_S512x1_S512x64 (ix2 p a) = c (ix2 p (0 : Fin 1)) :=
  broadcastTo_a1_ab_apply c broadcasts_S512x1_S512x64 p a

/-- A row of 1024 entries spread down 512 rows. -/
theorem brow1024 {α : Type} (r : S1x1024.Idx → α) (p : Fin 512) (e : Fin 1024) :
    broadcastTo S512x1024 r broadcasts_S1x1024_S512x1024 (ix2 p e) = r (ix2 (0 : Fin 1) e) :=
  broadcastTo_1b_ab_apply r broadcasts_S1x1024_S512x1024 p e

/-- The [512,1024] by [1024,1024] product into the zero accumulator. -/
theorem mm_1024_1024 (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ j : Fin 1024, l (ix2 p j) * r (ix2 j q) :=
  matmul_zero_ix2 dot_S512x1024_S1024x1024_S512x1024_1_0_0_1_n_n rfl rfl rfl rfl rfl rfl none l r p q

/-- The [512,1024] by [1024,64] product into the zero accumulator. -/
theorem mm_1024_64 (l : FVec Ideal S512x1024 .bf16) (r : FVec Ideal S1024x64 .bf16) (p : Fin 512) (q : Fin 64) :
    matmul dot_S512x1024_S1024x64_S512x64_1_0_0_1_n_n none l r (constant S512x64 .f32 0x00000000#32) (ix2 p q)
      = ∑ j : Fin 1024, l (ix2 p j) * r (ix2 j q) :=
  matmul_zero_ix2 dot_S512x1024_S1024x64_S512x64_1_0_0_1_n_n rfl rfl rfl rfl rfl rfl none l r p q

/-- The [512,64] by [64,1024] product into the zero accumulator. -/
theorem mm_64_1024 (l : FVec Ideal S512x64 .bf16) (r : FVec Ideal S64x1024 .bf16) (p : Fin 512) (q : Fin 1024) :
    matmul dot_S512x64_S64x1024_S512x1024_1_0_0_1_n_n none l r (constant S512x1024 .f32 0x00000000#32) (ix2 p q)
      = ∑ j : Fin 64, l (ix2 p j) * r (ix2 j q) :=
  matmul_zero_ix2 dot_S512x64_S64x1024_S512x1024_1_0_0_1_n_n rfl rfl rfl rfl rfl rfl none l r p q

/-- The x block without its leading unit axis. -/
theorem x_block {α : Type} (x : S1x512x1024.Idx → α) (p : Fin 512) (d : Fin 1024) :
    shapeCast S512x1024 x shapeCasts_S1x512x1024_S512x1024 (ix2 p d) = x (ix3 (0 : Fin 1) p d) :=
  shapeCast_1ab_ab_apply x shapeCasts_S1x512x1024_S512x1024 p d

/-- The mask block without its leading unit axis. -/
theorem mask_block {α : Type} (x : S1x512x1.Idx → α) (p : Fin 512) (u : Fin 1) :
    shapeCast S512x1 x shapeCasts_S1x512x1_S512x1 (ix2 p u) = x (ix3 (0 : Fin 1) p u) :=
  shapeCast_1ab_ab_apply x shapeCasts_S1x512x1_S512x1 p u

/-- The result block with its leading unit axis put back. -/
theorem out_block {α : Type} (x : S512x1024.Idx → α) (u : Fin 1) (p : Fin 512) (e : Fin 1024) :
    shapeCast S1x512x1024 x shapeCasts_S512x1024_S1x512x1024 (ix3 u p e) = x (ix2 p e) :=
  shapeCast_ab_1ab_apply x shapeCasts_S512x1024_S1x512x1024 u p e

end Cert.KernelIdeal.KPay

end
-- ==== Proof.KPayLN.lean ====
/-
  Layer norm over the rows of a [512,1024] block as the body writes it, read at one entry: the row mean is the
  row sum over 1024, the deviation the root of the sum of squared differences over 1023, and the entry is
  g · (v − mean) / (deviation + eps) + be with g and be rows spread down the block. At entry (p, e) this is the
  specification's layer norm of row p of the block, at e.
-/
import proofs.«128733_j28432683499590_1_alg».proof.Proof.KPayOps
import proofs.«128733_j28432683499590_1_alg».proof.Proof.Spec

noncomputable section

open scoped BigOperators

namespace Cert.KernelIdeal.KPay

open Cert.KernelIdeal Cert.KernelIdeal.Gen Idealize.ShloMosaic Idealize.ShloMosaic.ValueIdx

/-- The body's layer-norm operations on a block v with scale row g and shift row be. -/
def lnChain (v : FVec Ideal S512x1024 .f32) (g be : FVec Ideal S1x1024 .f32) : FVec Ideal S512x1024 .f32 :=
  have v41 : FVec Ideal S512 .f32 := rsum1024 v
  have v42 : FVec Ideal S512x1 .f32 := shapeCast S512x1 v41 shapeCasts_S512_S512x1
  have cst_24 : Ideal .f32 := Scalar.ofBits .f32 0x44800000#32
  have v43 : FVec Ideal S512x1 .f32 := broadcast S512x1 cst_24
  have v44 : FVec Ideal S512x1 .f32 := divf v42 v43
  have v45 : FVec Ideal S512x1024 .f32 := broadcastTo S512x1024 v44 broadcasts_S512x1_S512x1024
  have v46 : FVec Ideal S512x1024 .f32 := subf v v45
  have v47 : FVec Ideal S512x1024 .f32 := mulf v46 v46
  have v48 : FVec Ideal S512 .f32 := rsum1024 v47
  have v49 : FVec Ideal S512x1 .f32 := shapeCast S512x1 v48 shapeCasts_S512_S512x1
  have cst_26 : Ideal .f32 := Scalar.ofBits .f32 0x447FC000#32
  have v50 : FVec Ideal S512x1 .f32 := broadcast S512x1 cst_26
  have v51 : FVec Ideal S512x1 .f32 := divf v49 v50
  have v52 : FVec Ideal S512x1 .f32 := sqrt v51
  have v53 : FVec Ideal S512x1024 .f32 := broadcastTo S512x1024 v44 broadcasts_S512x1_S512x1024
  have v54 : FVec Ideal S512x1024 .f32 := subf v v53
  have v55 : FVec Ideal S512x1024 .f32 := broadcastTo S512x1024 g broadcasts_S1x1024_S512x1024
  have v56 : FVec Ideal S512x1024 .f32 := mulf v55 v54
  have cst_27 : Ideal .f32 := Scalar.ofBits .f32 0x358637BD#32
  have v57 : FVec Ideal S512x1 .f32 := broadcast S512x1 cst_27
  have v58 : FVec Ideal S512x1 .f32 := addf v52 v57
  have v59 : FVec Ideal S512x1024 .f32 := broadcastTo S512x1024 v58 broadcasts_S512x1_S512x1024
  have v60 : FVec Ideal S512x1024 .f32 := divf v56 v59
  have v61 : FVec Ideal S512x1024 .f32 := broadcastTo S512x1024 be broadcasts_S1x1024_S512x1024
  have v62 : FVec Ideal S512x1024 .f32 := addf v60 v61
  v62

/-- The chain at entry (p, e) is the specification's layer norm of row p. -/
theorem lnChain_apply (v : FVec Ideal S512x1024 .f32) (g be : FVec Ideal S1x1024 .f32) (p : Fin 512) (e : Fin 1024) :
    lnChain v g be (ix2 p e)
      = Cert.Spec.layerNorm (fun k => v (ix2 p k)) (fun k => g (ix2 (0 : Fin 1) k)) (fun k => be (ix2 (0 : Fin 1) k)) e := by
  unfold lnChain
  simp only [addf_apply, divf_apply, mulf_apply, subf_apply, sqrt_apply, broadcast_apply, bcol1024, brow1024, col512, rsum1024_apply,
    scalar_ofBits]
  rfl

/-- The first layer norm of the body is the chain on x + read-out. -/
theorem k0_pay4_eq (v1 v35 : FVec Ideal S512x1024 .f32) (v36 v38 : Vec Ideal S1x1024 .f32) :
    k0_pay4 v1 v35 v36 v38 = lnChain (addf v1 v35) v36 v38 := by
  unfold k0_pay4
  rw [shapeCast_self v36, shapeCast_self v38]
  rfl

/-- The body's tail is the chain on h + activation, with its leading unit axis put back. -/
theorem k0_pay1_apply (v62 v75 : FVec Ideal S512x1024 .f32) (v77 : FVec Ideal S1x1024 .f32) (v78 : Vec Ideal S1x1024 .f32)
    (u : Fin 1) (p : Fin 512) (e : Fin 1024) :
    k0_pay1 v62 v75 v77 v78 (ix3 u p e) = lnChain (addf v62 v75) v77 v78 (ix2 p e) := by
  unfold k0_pay1
  rw [shapeCast_self v78]
  exact out_block _ u p e

end Cert.KernelIdeal.KPay

end
-- ==== Proof.KPayAttn.lean ====
/-
  The attention read-out of the body at one entry. Row p of the x block is projected (x · W_Qᵀ + b_Q), scored against
  the 64 landmarks (times 1/32, which is a division by 32), shifted by the row maximum, exponentiated, normalised by
  the row sum, multiplied by the row's mask value, and contracted with C_Vᵀ: entry (p, d) is the specification's
  read-out of that row's attention weights, at d.
-/
import proofs.«128733_j28432683499590_1_alg».proof.Proof.KPayOps
import proofs.«128733_j28432683499590_1_alg».proof.Proof.Spec

noncomputable section

open scoped BigOperators

namespace Cert.KernelIdeal.KPay

open Cert.KernelIdeal Cert.KernelIdeal.Gen Idealize.ShloMosaic Idealize.ShloMosaic.ValueIdx

/-- The body's attention operations on the x block x1 (leading unit axis dropped), the mask block, W_Qᵀ, b_Q, C_K, C_Vᵀ. -/
def attnChain (x1 : FVec Ideal S512x1024 .f32) (v2 : Vec Ideal S1x512x1 .i32) (v6 : Vec Ideal S1024x1024 .bf16)
    (v8 : Vec Ideal S1x1024 .f32) (v13 : Vec Ideal S1024x64 .bf16) (v32 : Vec Ideal S64x1024 .bf16) : FVec Ideal S512x1024 .f32 :=
  have v3 : IVec S512x1 32 := shapeCast S512x1 v2 shapeCasts_S1x512x1_S512x1
  have v4 : FVec Ideal S512x1 .f32 := sitofp .f32 v3
  have v5 : FVec Ideal S512x1024 .bf16 := truncf .bf16 x1 bitsLt_bf16_f32
  have v7 : FVec Ideal S1024x1024 .bf16 := shapeCast S1024x1024 v6 shapeCasts_S1024x1024_S1024x1024
  have v9 : FVec Ideal S1x1024 .f32 := shapeCast S1x1024 v8 shapeCasts_S1x1024_S1x1024
  have cst : FVec Ideal S512x1024 .f32 := constant S512x1024 .f32 0x00000000#32
  have v10 : FVec Ideal S512x1024 .f32 := matmul dot_S512x1024_S1024x1024_S512x1024_1_0_0_1_n_n none v5 v7 cst
  have v11 : FVec Ideal S512x1024 .f32 := broadcastTo S512x1024 v9 broadcasts_S1x1024_S512x1024
  have v12 : FVec Ideal S512x1024 .f32 := addf v10 v11
  have v14 : FVec Ideal S1024x64 .bf16 := shapeCast S1024x64 v13 shapeCasts_S1024x64_S1024x64
  have v15 : FVec Ideal S512x1024 .bf16 := truncf .bf16 v12 bitsLt_bf16_f32
  have cst_11 : FVec Ideal S512x64 .f32 := constant S512x64 .f32 0x00000000#32
  have v16 : FVec Ideal S512x64 .f32 := matmul dot_S512x1024_S1024x64_S512x64_1_0_0_1_n_n none v15 v14 cst_11
  have cst_12 : Ideal .f32 := Scalar.ofBits .f32 0x3D000000#32
  have v17 : FVec Ideal S512x64 .f32 := broadcast S512x64 cst_12
  have v18 : FVec Ideal S512x64 .f32 := mulf v16 v17
  have v19 : FVec Ideal S512 .f32 := rmax64 v18
  have cst_14 : Ideal .f32 := Scalar.ofBits .f32 0xFF800000#32
  have v20 : FVec Ideal S512 .f32 := broadcast S512 cst_14
  have v21 : FVec Ideal S512 .f32 := maximumf v20 v19
  have v22 : FVec Ideal S512x1 .f32 := shapeCast S512x1 v21 shapeCasts_S512_S512x1
  have v23 : FVec Ideal S512x64 .f32 := broadcastTo S512x64 v22 broadcasts_S512x1_S512x64
  have v24 : FVec Ideal S512x64 .f32 := subf v18 v23
  have v25 : FVec Ideal S512x64 .f32 := exp v24
  have v26 : FVec Ideal S512 .f32 := rsum64 v25
  have v27 : FVec Ideal S512x1 .f32 := shapeCast S512x1 v26 shapeCasts_S512_S512x1
  have v28 : FVec Ideal S512x64 .f32 := broadcastTo S512x64 v27 broadcasts_S512x1_S512x64
  have v29 : FVec Ideal S512x64 .f32 := divf v25 v28
  have v30 : FVec Ideal S512x64 .f32 := broadcastTo S512x64 v4 broadcasts_S512x1_S512x64
  have v31 : FVec Ideal S512x64 .f32 := mulf v29 v30
  have v33 : FVec Ideal S64x1024 .bf16 := shapeCast S64x1024 v32 shapeCasts_S64x1024_S64x1024
  have v34 : FVec Ideal S512x64 .bf16 := truncf .bf16 v31 bitsLt_bf16_f32
  have cst_18 : FVec Ideal S512x1024 .f32 := constant S512x1024 .f32 0x00000000#32
  have v35 : FVec Ideal S512x1024 .f32 := matmul dot_S512x64_S64x1024_S512x1024_1_0_0_1_n_n none v34 v33 cst_18
  v35

/-- The body's read-out is the chain on the x block without its leading unit axis. -/
theorem k0_pay3_eq (v0 : Vec Ideal S1x512x1024 .f32) (v2 : Vec Ideal S1x512x1 .i32) (v6 : Vec Ideal S1024x1024 .bf16)
    (v8 : Vec Ideal S1x1024 .f32) (v13 : Vec Ideal S1024x64 .bf16) (v32 : Vec Ideal S64x1024 .bf16) :
    k0_pay3 v0 v2 v6 v8 v13 v32 = attnChain (k0_pay2 v0) v2 v6 v8 v13 v32 := rfl

set_option maxHeartbeats 400000 in
/-- The chain at entry (p, d) is the specification's read-out for row p. -/
theorem attnChain_apply (x1 : FVec Ideal S512x1024 .f32) (P3 : Vec Ideal S1x512x1 .i32) (P4 : Vec Ideal S1024x1024 .bf16)
    (P5 : Vec Ideal S1x1024 .f32) (P6 : Vec Ideal S1024x64 .bf16) (P7 : Vec Ideal S64x1024 .bf16) (p : Fin 512) (d : Fin 1024) :
    attnChain x1 P3 P4 P5 P6 P7 (ix2 p d)
      = Cert.Spec.readout
          (Cert.Spec.attnWeights
            (Cert.Spec.scores
              (Cert.Spec.proj (fun e d => P4 (ix2 d e)) (fun e => P5 (ix2 (0 : Fin 1) e)) (fun d => x1 (ix2 p d)))
              (fun d a => P6 (ix2 d a)))
            (FloatOps.sitofp (F := Ideal) .f32 (P3 (ix3 (0 : Fin 1) p (0 : Fin 1)))))
          (fun d a => P7 (ix2 a d)) d := by
  unfold attnChain
  simp only [mm_64_1024, mm_1024_64, mm_1024_1024, truncf_apply, mulf_apply, divf_apply, addf_apply, subf_apply, exp_apply,
    maximumf_apply, sitofp_apply, broadcast_apply, bcol64, brow1024, col512, rsum64_apply, rmax64_apply, shapeCast_self,
    mask_block, scalar_ofBits, Cert.Spec.mul_inv32]
  rfl

end Cert.KernelIdeal.KPay

end
-- ==== Proof.KPayFFN.lean ====
/-
  The feed-forward branch of the body at one entry: row p of the normed block h is projected (h · Wcᵀ + bc) and sent
  through the leaky ReLU written as a comparison with zero and a select between the value and 0.01 times it.
-/
import proofs.«128733_j28432683499590_1_alg».proof.Proof.KPayOps
import proofs.«128733_j28432683499590_1_alg».proof.Proof.Spec

noncomputable section

open scoped BigOperators

namespace Cert.KernelIdeal.KPay

open Cert.KernelIdeal Cert.KernelIdeal.Gen Idealize.ShloMosaic Idealize.ShloMosaic.ValueIdx

/-- The activation at entry (p, e), over the first layer norm's block kept as it is. -/
theorem k0_pay5_apply (v1 v35 : FVec Ideal S512x1024 .f32) (v36 v38 : Vec Ideal S1x1024 .f32) (v63 : Vec Ideal S1024x1024 .bf16)
    (v65 : Vec Ideal S1x1024 .f32) (p : Fin 512) (e : Fin 1024) :
    k0_pay5 v1 v35 v36 v38 v63 v65 (ix2 p e)
      = Cert.Spec.leaky
          (Cert.Spec.proj (fun e d => v63 (ix2 d e)) (fun e => v65 (ix2 (0 : Fin 1) e))
            (fun d => k0_pay4 v1 v35 v36 v38 (ix2 p d)) e) := by
  unfold k0_pay5
  simp only [select_apply, cmpf_apply, mulf_apply, addf_apply, broadcast_apply, mm_1024_1024, truncf_apply, brow1024,
    shapeCast_self, scalar_ofBits]
  rfl

end Cert.KernelIdeal.KPay

end
-- ==== Proof.KernelPayload.lean ====
/-
  The kernel body's stored value, read at one entry: row p, column e of the block a grid point stores is entry e of
  the layer of Spec.lean applied to row p of the point's x block, with the point's mask entry and the (transposed)
  weight blocks.
-/
import proofs.«128733_j28432683499590_1_alg».proof.Proof.Gen.KernelIdeal.Skeleton
import proofs.«128733_j28432683499590_1_alg».proof.Proof.Spec
import proofs.«128733_j28432683499590_1_alg».proof.Proof.KPayLN
import proofs.«128733_j28432683499590_1_alg».proof.Proof.KPayAttn
import proofs.«128733_j28432683499590_1_alg».proof.Proof.KPayFFN

noncomputable section

namespace Cert.KernelIdeal.KPay

open Cert.KernelIdeal Cert.KernelIdeal.Gen Idealize.ShloMosaic Idealize.ShloMosaic.ValueIdx

/-- The second scale row is the loaded row itself. -/
theorem k0_pay6_eq (v76 : Vec Ideal S1x1024 .f32) : k0_pay6 v76 = v76 := by
  unfold k0_pay6
  exact shapeCast_self v76 _

theorem pay_row (P0 P1 : Vec Ideal S1x1024 .f32) (P2 : Vec Ideal S1x512x1024 .f32) (P3 : Vec Ideal S1x512x1 .i32)
    (P4 : Vec Ideal S1024x1024 .bf16) (P5 : Vec Ideal S1x1024 .f32) (P6 : Vec Ideal S1024x64 .bf16)
    (P7 : Vec Ideal S64x1024 .bf16) (P8 : Vec Ideal S1x1024 .f32) (P9 : Vec Ideal S1024x1024 .bf16)
    (P10 P11 : Vec Ideal S1x1024 .f32) (p : Fin 512) (e : Fin 1024) :
    k0_pay1 (k0_pay4 (k0_pay2 P2) (k0_pay3 P2 P3 P4 P5 P6 P7) P1 P8)
        (k0_pay5 (k0_pay2 P2) (k0_pay3 P2 P3 P4 P5 P6 P7) P1 P8 P9 P10) (k0_pay6 P0) P11 (ix3 (0 : Fin 1) p e)
      = Cert.Spec.rowOut (fun d => P2 (ix3 (0 : Fin 1) p d))
          (FloatOps.sitofp (F := Ideal) .f32 (P3 (ix3 (0 : Fin 1) p (0 : Fin 1))))
          (fun e d => P4 (ix2 d e)) (fun e => P5 (ix2 (0 : Fin 1) e)) (fun d a => P6 (ix2 d a)) (fun d a => P7 (ix2 a d))
          (fun e => P1 (ix2 (0 : Fin 1) e)) (fun e => P8 (ix2 (0 : Fin 1) e)) (fun e d => P9 (ix2 d e))
          (fun e => P10 (ix2 (0 : Fin 1) e)) (fun e => P0 (ix2 (0 : Fin 1) e)) (fun e => P11 (ix2 (0 : Fin 1) e)) e := by
  -- row p of the x block without its leading unit axis is row p of the block
  have hx : ∀ d : Fin 1024, k0_pay2 P2 (ix2 p d) = P2 (ix3 (0 : Fin 1) p d) := fun d => x_block P2 p d
  -- the tail: the second layer norm of h + activation
  rw [k0_pay1_apply, lnChain_apply, k0_pay6_eq]
  -- h is the first layer norm of x + read-out; the activation is the leaky ReLU of h's projection
  simp only [addf_apply, k0_pay5_apply, k0_pay4_eq, lnChain_apply, k0_pay3_eq, attnChain_apply, hx]
  rfl

end Cert.KernelIdeal.KPay

end
-- ==== Proof.KernelValue.lean ====
/-
  The kernel's result array: every grid point writes back the layer of Spec.lean applied to its 512 token rows, the
  64 blocks tile the array, so after the run the array holds the layer applied to every token row.
-/
import proofs.«128733_j28432683499590_1_alg».proof.Proof.Gen.KernelIdeal.Value
import proofs.«128733_j28432683499590_1_alg».proof.Proof.Spec
import proofs.«128733_j28432683499590_1_alg».proof.Proof.KernelArrays
import proofs.«128733_j28432683499590_1_alg».proof.Proof.KernelPayload

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.KArr

variable (m : (ℓ : Loc nD τ sig) → Buf (Elt Ideal) ℓ) (ρ : Dev nD → PrngReg)

/-- The layer applied to the argument arrays. -/
abbrev Gk (c : Dev nD) : S8x4096x1024.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem hz3 : (![0, 0, 0] : Fin 3 → Nat) = fun _ => 0 := funext fun a => by fin_cases a <;> rfl
theorem hz2 : (![0, 0] : Fin 2 → Nat) = fun _ => 0 := funext fun a => by fin_cases a <;> rfl

/-- A block that holds, at (0, p, e), an array's entry (bOf t, lOf t p, e) is that array read through point t's
    output block. -/
theorem cut_read (t : Fin cfg0.N) (X : Vec Ideal S1x512x1024 .f32) (G : S8x4096x1024.Idx → EReal)
    (h : ∀ (p : Fin 512) (e : Fin 1024), X (ix3 (0 : Fin 1) p e) = G (ix3 (bOf t) (lOf t p) e)) :
    (cfg0.win 12).cut (grid0.coords t) X = ((cfg0.win 12).blk t).view.read (Elt Ideal) G := by
  funext y
  rw [View.read_apply]
  obtain ⟨u, p, e, rfl⟩ : ∃ (u : Fin 1) (p : Fin 512) (e : Fin 1024), y = ix3 u p e := ⟨y 0, y 1, y 2, eq_ix3 y⟩
  obtain rfl : u = 0 := Subsingleton.elim _ _
  rw [emb12]
  exact h p e

/-- What point t writes back is block t of the layer applied to the argument arrays. -/
theorem flushed_eq (c : Dev nD) (t : Fin cfg0.N) :
    (dats m 0 c).flushed 12 t = ((cfg0.win 12).blk t).view.read (Elt Ideal) (Gk m c) := by
  rw [Value.flushed12]
  refine cut_read t _ _ fun p e => ?_
  unfold out0_12
  rw [View.canon_unit_zero hz3]
  simp only [View.ld_unit_zero (S := S1x512x1024) hz3, View.ld_unit_zero (S := S1x512x1) hz3,
    View.ld_unit_zero (S := S1024x1024) hz2, View.ld_unit_zero (S := S1x1024) hz2,
    View.ld_unit_zero (S := S1024x64) hz2, View.ld_unit_zero (S := S64x1024) hz2]
  refine (KPay.pay_row (iblk m c 10 t) (iblk m c 6 t) (iblk m c 0 t) (iblk m c 1 t) (iblk m c 2 t) (iblk m c 3 t)
    (iblk m c 4 t) (iblk m c 5 t) (iblk m c 7 t) (iblk m c 8 t) (iblk m c 9 t) (iblk m c 11 t) p e).trans ?_
  dsimp only [Gk]
  rw [Cert.Spec.G_ix3]
  simp only [iblk0_apply, iblk1_apply, iblk2_apply, iblk3_apply, iblk4_apply, iblk5_apply, iblk6_apply, iblk7_apply,
    iblk8_apply, iblk9_apply, iblk10_apply, iblk11_apply]

/-- Every (batch row, row tile) pair is some grid point's block index (decided). -/
theorem idx_onto : ∀ (q0 : Fin 8) (q1 : Fin 8), ∃ t : Fin cfg0.N, win0_12.index t = ![q0.val, q1.val, 0] :=
  (by decide +kernel : ∀ (q0 : Fin 8) (q1 : Fin 8), ∃ t : Fin grid0.N, win0_12.index t = ![q0.val, q1.val, 0])

/-- An index of the result array is in point t's block iff each coordinate is in the block's range on its axis. -/
theorem mem_blk (t : Fin cfg0.N) (i : S8x4096x1024.Idx) :
    i ∈ ((cfg0.win 12).blk t).view.set ↔ ∀ a : Fin 3, win0_12.index t a * S1x512x1024.size a ≤ (i a).val
      ∧ (i a).val < win0_12.index t a * S1x512x1024.size a + S1x512x1024.size a := by
  show i ∈ ((View.whole main_v14).slice (win0_12.rect t)).set ↔ _
  rw [View.set_slice_whole, Rect.mem_set_unit]
  exact Iff.rfl

/-- The blocks tile the result array: entry (b, l, e) is in the block of the point at (b, l / 512). -/
theorem cover (i : S8x4096x1024.Idx) :
    ∃ t : Fin cfg0.N, (cfg0.win 12).flush t = true ∧ i ∈ ((cfg0.win 12).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win0_12.index t (0 : Fin 3) = (i 0).val := congrFun ht 0
  have q1 : win0_12.index t (1 : Fin 3) = (i 1).val / 512 := congrFun ht 1
  have q2 : win0_12.index t (2 : Fin 3) = 0 := congrFun ht 2
  refine ⟨t, flush0_12 t, ?_⟩
  rw [mem_blk]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 512 ≤ (i 1).val ∧ (i 1).val < win0_12.index t (1 : Fin 3) * 512 + 512; omega
  | ⟨2, _⟩ => show win0_12.index t (2 : Fin 3) * 1024 ≤ (i 2).val ∧ (i 2).val < win0_12.index t (2 : Fin 3) * 1024 + 1024; omega

/-- The result array after the run is the layer applied to the argument arrays. -/
theorem final (c : Dev nD) : (dats m 0 c).arrAt 12 cfg0.N = Gk m c :=
  (dats m 0 c).arrAt_eq_of_cover 12 (Gk m c) (fun t _ => flushed_eq m c t) cover

/-- The kernel program's run, read: the result array holds the layer applied to the argument arrays, which are unchanged. -/
theorem run : θ_run (defs (F := Ideal)) (onTc (τ := τ) (main (F := Ideal))) ⟨m, fun _ => 0, ρ⟩ fun r => ∀ c : Dev nD,
      r.2.mem ((c : Thread nD τ).loc main_v14) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.KValue

end
-- ==== Proof.RefRun.lean ====
/-
  The reference program's host function as one straight line of its operations, the outlined leaky-ReLU function
  (and the select it calls) written out at the call over the call's own buffers, and its run: every weakly fair
  execution terminates with each buffer at the fold of that line over the launch contents.
-/
import proofs.«128733_j28432683499590_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first sixty operations of the host function, in order. -/
abbrev ops0 : List (HloOp τ sig (Elt F)) :=
  [ binary main_arg0 main_arg2 main_v0 ((fun l r => Host.dotGeneral dot_S8x4096x1024_S1024x1024_S8x4096x1024_2_1_01_0_n_n none l r) : (⟨S8x4096x1024, .f32⟩ : BufTy).Contents (Elt F) → (⟨S1024x1024, .f32⟩ : BufTy).Contents (Elt F) → (⟨S8x4096x1024, .f32⟩ : BufTy).Contents (Elt F)),
    unary main_arg3 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v0 main_v2 main_v3 (addf : (⟨S8x4096x1024, .f32⟩ : BufTy).Contents (Elt F) → (⟨S8x4096x1024, .f32⟩ : BufTy).Contents (Elt F) → (⟨S8x4096x1024, .f32⟩ : BufTy).Contents (Elt F)),
    binary main_v3 main_arg4 main_v4 ((fun l r => Host.dotGeneral dot_S8x4096x1024_S1024x64_S8x4096x64_2_0_01_1_n_n none l r) : (⟨S8x4096x1024, .f32⟩ : BufTy).Contents (Elt F) → (⟨S1024x64, .f32⟩ : BufTy).Contents (Elt F) → (⟨S8x4096x64, .f32⟩ : BufTy).Contents (Elt F)),
    nullary main_cst (constant S_ .f32 0x42000000#32),
    unary main_cst main_v5 (broadcastInDim S8x4096x64 ![] bcast_S_S8x4096x64 : (⟨S_, .f32⟩ : BufTy).Contents (Elt F) → (⟨S8x4096x64, .f32⟩ : BufTy).Contents (Elt F)),
    binary main_v4 main_v5 main_v6 (Host.divf : (⟨S8x4096x64, .f32⟩ : BufTy).Contents (Elt F) → (⟨S8x4096x64, .f32⟩ : BufTy).Contents (Elt F) → (⟨S8x4096x64, .f32⟩ : BufTy).Contents (Elt F)),
    nullary main_cst_0 (constant S_ .f32 0xFF800000#32),
    binary main_v6 main_cst_0 main_v7 ((fun x v => Host.reduce FloatOps.maximumf x v reducesTo_S8x4096x64_S8x4096_d2 h_S_) : (⟨S8x4096x64, .f32⟩ : BufTy).Contents (Elt F) → (⟨S_, .f32⟩ : BufTy).Contents (Elt F) → (⟨S8x4096, .f32⟩ : BufTy).Contents (Elt F)),
    nullary main_cst_1 (constant S_ .f32 0xFF800000#32),
    unary main_cst_1 main_v8 (broadcastInDim S8x4096 ![] bcast_S_S8x4096 : (⟨S_, .f32⟩ : BufTy).Contents (Elt F) → (⟨S8x4096, .f32⟩ : BufTy).Contents (Elt F)),
    binary main_v8 main_v7 main_v9 (maximumf : (⟨S8x4096, .f32⟩ : BufTy).Contents (Elt F) → (⟨S8x4096, .f32⟩ : BufTy).Contents (Elt F) → (⟨S8x4096, .f32⟩ : BufTy).Contents (Elt F)),
    unary main_v9 main_v10 (broadcastInDim S8x4096x1 ![0, 1] bcast_S8x4096_S8x4096x1_0_1 : (⟨S8x4096, .f32⟩ : BufTy).Contents (Elt F) → (⟨S8x4096x1, .f32⟩ : BufTy).Contents (Elt F)),
    unary main_v10 main_v11 (broadcastInDim S8x4096x64 ![0, 1, 2] bcast_S8x4096x1_S8x4096x64_0_1_2 : (⟨S8x4096x1, .f32⟩ : BufTy).Contents (Elt F) → (⟨S8x4096x64, .f32⟩ : BufTy).Contents (Elt F)),
    binary main_v6 main_v11 main_v12 (subf : (⟨S8x4096x64, .f32⟩ : BufTy).Contents (Elt F) → (⟨S8x4096x64, .f32⟩ : BufTy).Contents (Elt F) → (⟨S8x4096x64, .f32⟩ : BufTy).Contents (Elt F)),
    unary main_v12 main_v13 (Host.exp : (⟨S8x4096x64, .f32⟩ : BufTy).Contents (Elt F) → (⟨S8x4096x64, .f32⟩ : BufTy).Contents (Elt F)),
    nullary main_cst_2 (constant S_ .f32 0x00000000#32),
    binary main_v13 main_cst_2 main_v14 ((fun x v => Host.reduceAdd x v reducesTo_S8x4096x64_S8x4096_d2 h_S_) : (⟨S8x4096x64, .f32⟩ : BufTy).Contents (Elt F) → (⟨S_, .f32⟩ : BufTy).Contents (Elt F) → (⟨S8x4096, .f32⟩ : BufTy).Contents (Elt F)),
    unary main_v14 main_v15 (broadcastInDim S8x4096x1 ![0, 1] bcast_S8x4096_S8x4096x1_0_1 : (⟨S8x4096, .f32⟩ : BufTy).Contents (Elt F) → (⟨S8x4096x1, .f32⟩ : BufTy).Contents (Elt F)),
    unary main_v15 main_v16 (broadcastInDim S8x4096x64 ![0, 1, 2] bcast_S8x4096x1_S8x4096x64_0_1_2 : (⟨S8x4096x1, .f32⟩ : BufTy).Contents (Elt F) → (⟨S8x4096x64, .f32⟩ : BufTy).Contents (Elt F)),
    binary main_v13 main_v16 main_v17 (Host.divf : (⟨S8x4096x64, .f32⟩ : BufTy).Contents (Elt F) → (⟨S8x4096x64, .f32⟩ : BufTy).Contents (Elt F) → (⟨S8x4096x64, .f32⟩ : BufTy).Contents (Elt F)),
    unary main_arg1 main_v18 (broadcastInDim S8x4096x1 ![0, 1] bcast_S8x4096_S8x4096x1_0_1 : (⟨S8x4096, .i32⟩ : BufTy).Contents (Elt F) → (⟨S8x4096x1, .i32⟩ : BufTy).Contents (Elt F)),
    unary main_v18 main_v19 (sitofp .f32 : (⟨S8x4096x1, .i32⟩ : BufTy).Contents (Elt F) → (⟨S8x4096x1, .f32⟩ : BufTy).Contents (Elt F)),
    unary main_v19 main_v20 (broadcastInDim S8x4096x64 ![0, 1, 2] bcast_S8x4096x1_S8x4096x64_0_1_2 : (⟨S8x4096x1, .f32⟩ : BufTy).Contents (Elt F) → (⟨S8x4096x64, .f32⟩ : BufTy).Contents (Elt F)),
    binary main_v17 main_v20 main_v21 (mulf : (⟨S8x4096x64, .f32⟩ : BufTy).Contents (Elt F) → (⟨S8x4096x64, .f32⟩ : BufTy).Contents (Elt F) → (⟨S8x4096x64, .f32⟩ : BufTy).Contents (Elt F)),
    binary main_v21 main_arg5 main_v22 ((fun l r => Host.dotGeneral dot_S8x4096x64_S1024x64_S8x4096x1024_2_1_01_0_n_n none l r) : (⟨S8x4096x64, .f32⟩ : BufTy).Contents (Elt F) → (⟨S1024x64, .f32⟩ : BufTy).Contents (Elt F) → (⟨S8x4096x1024, .f32⟩ : BufTy).Contents (Elt F)),
    binary main_arg0 main_v22 main_v23 (addf : (⟨S8x4096x1024, .f32⟩ : BufTy).Contents (Elt F) → (⟨S8x4096x1024, .f32⟩ : BufTy).Contents (Elt F) → (⟨S8x4096x1024, .f32⟩ : BufTy).Contents (Elt F)),
    nullary main_cst_3 (constant S_ .f32 0x00000000#32),
    binary main_v23 main_cst_3 main_v24 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v24 main_v25 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_4 (constant S_ .f32 0x44800000#32),
    unary main_cst_4 main_v26 (broadcastInDim S8x4096x1 ![] bcast_S_S8x4096x1 : (⟨S_, .f32⟩ : BufTy).Contents (Elt F) → (⟨S8x4096x1, .f32⟩ : BufTy).Contents (Elt F)),
    binary main_v25 main_v26 main_v27 (Host.divf : (⟨S8x4096x1, .f32⟩ : BufTy).Contents (Elt F) → (⟨S8x4096x1, .f32⟩ : BufTy).Contents (Elt F) → (⟨S8x4096x1, .f32⟩ : BufTy).Contents (Elt F)),
    unary main_v27 main_v28 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v23 main_v28 main_v29 (subf : (⟨S8x4096x1024, .f32⟩ : BufTy).Contents (Elt F) → (⟨S8x4096x1024, .f32⟩ : BufTy).Contents (Elt F) → (⟨S8x4096x1024, .f32⟩ : BufTy).Contents (Elt F)),
    binary main_v29 main_v29 main_v30 (mulf : (⟨S8x4096x1024, .f32⟩ : BufTy).Contents (Elt F) → (⟨S8x4096x1024, .f32⟩ : BufTy).Contents (Elt F) → (⟨S8x4096x1024, .f32⟩ : BufTy).Contents (Elt F)),
    nullary main_cst_5 (constant S_ .f32 0x00000000#32),
    binary main_v30 main_cst_5 main_v31 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v31 main_v32 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_6 (constant S_ .f32 0x447FC000#32),
    unary main_cst_6 main_v33 (broadcastInDim S8x4096x1 ![] bcast_S_S8x4096x1 : (⟨S_, .f32⟩ : BufTy).Contents (Elt F) → (⟨S8x4096x1, .f32⟩ : BufTy).Contents (Elt F)),
    binary main_v32 main_v33 main_v34 (Host.divf : (⟨S8x4096x1, .f32⟩ : BufTy).Contents (Elt F) → (⟨S8x4096x1, .f32⟩ : BufTy).Contents (Elt F) → (⟨S8x4096x1, .f32⟩ : BufTy).Contents (Elt F)),
    unary main_v34 main_v35 (Host.sqrt : (⟨S8x4096x1, .f32⟩ : BufTy).Contents (Elt F) → (⟨S8x4096x1, .f32⟩ : BufTy).Contents (Elt F)),
    unary main_v27 main_v36 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v23 main_v36 main_v37 (subf : (⟨S8x4096x1024, .f32⟩ : BufTy).Contents (Elt F) → (⟨S8x4096x1024, .f32⟩ : BufTy).Contents (Elt F) → (⟨S8x4096x1024, .f32⟩ : BufTy).Contents (Elt F)),
    unary main_arg6 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v39 main_v37 main_v40 (mulf : (⟨S8x4096x1024, .f32⟩ : BufTy).Contents (Elt F) → (⟨S8x4096x1024, .f32⟩ : BufTy).Contents (Elt F) → (⟨S8x4096x1024, .f32⟩ : BufTy).Contents (Elt F)),
    nullary main_cst_7 (constant S_ .f32 0x358637BD#32),
    unary main_cst_7 main_v41 (broadcastInDim S8x4096x1 ![] bcast_S_S8x4096x1 : (⟨S_, .f32⟩ : BufTy).Contents (Elt F) → (⟨S8x4096x1, .f32⟩ : BufTy).Contents (Elt F)),
    binary main_v35 main_v41 main_v42 (addf : (⟨S8x4096x1, .f32⟩ : BufTy).Contents (Elt F) → (⟨S8x4096x1, .f32⟩ : BufTy).Contents (Elt F) → (⟨S8x4096x1, .f32⟩ : BufTy).Contents (Elt F)),
    unary main_v42 main_v43 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v40 main_v43 main_v44 (Host.divf : (⟨S8x4096x1024, .f32⟩ : BufTy).Contents (Elt F) → (⟨S8x4096x1024, .f32⟩ : BufTy).Contents (Elt F) → (⟨S8x4096x1024, .f32⟩ : BufTy).Contents (Elt F)),
    unary main_arg7 main_v45 (broadcastInDim S1x1x1024 ![2] bcast_S1024_S1x1x1024_2 : (⟨S1024, .f32⟩ : BufTy).Contents (Elt F) → (⟨S1x1x1024, .f32⟩ : BufTy).Contents (Elt F)),
    unary main_v45 main_v46 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v44 main_v46 main_v47 (addf : (⟨S8x4096x1024, .f32⟩ : BufTy).Contents (Elt F) → (⟨S8x4096x1024, .f32⟩ : BufTy).Contents (Elt F) → (⟨S8x4096x1024, .f32⟩ : BufTy).Contents (Elt F)),
    binary main_v47 main_arg8 main_v48 ((fun l r => Host.dotGeneral dot_S8x4096x1024_S1024x1024_S8x4096x1024_2_1_01_0_n_n none l r) : (⟨S8x4096x1024, .f32⟩ : BufTy).Contents (Elt F) → (⟨S1024x1024, .f32⟩ : BufTy).Contents (Elt F) → (⟨S8x4096x1024, .f32⟩ : BufTy).Contents (Elt F)),
    unary main_arg9 main_v49 (broadcastInDim S1x1x1024 ![2] bcast_S1024_S1x1x1024_2 : (⟨S1024, .f32⟩ : BufTy).Contents (Elt F) → (⟨S1x1x1024, .f32⟩ : BufTy).Contents (Elt F)),
    unary main_v49 main_v50 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)) ]

/-- The remaining operations: two before the call, the call's seven, the thirty after. -/
abbrev ops1 : List (HloOp τ sig (Elt F)) :=
  [ binary main_v48 main_v50 main_v51 (addf : (⟨S8x4096x1024, .f32⟩ : BufTy).Contents (Elt F) → (⟨S8x4096x1024, .f32⟩ : BufTy).Contents (Elt F) → (⟨S8x4096x1024, .f32⟩ : BufTy).Contents (Elt F)),
    nullary main_cst_8 (constant S_ .f32 0x3C23D70A#32),
    TRef.nullary main_call0.cst (constant S_ .f32 0x00000000#32),
    TRef.unary main_call0.cst main_call0.v0 (broadcastInDim S8x4096x1024 ![] bcast_S_S8x4096x1024),
    TRef.binary (.of main_v51) main_call0.v0 main_call0.v1 (cmpf .oge),
    TRef.unary (.of main_cst_8) main_call0.v2 id,
    TRef.unary main_call0.v2 main_call0.v3 (broadcastInDim S8x4096x1024 ![] bcast_S_S8x4096x1024),
    TRef.binary main_call0.v3 (.of main_v51) main_call0.v4 mulf,
    TRef.ternary main_call0.v1 (.of main_v51) main_call0.v4 main_call0.call0.v0 select,
    binary main_v47 main_v52 main_v53 (addf : (⟨S8x4096x1024, .f32⟩ : BufTy).Contents (Elt F) → (⟨S8x4096x1024, .f32⟩ : BufTy).Contents (Elt F) → (⟨S8x4096x1024, .f32⟩ : BufTy).Contents (Elt F)),
    nullary main_cst_9 (constant S_ .f32 0x00000000#32),
    binary main_v53 main_cst_9 main_v54 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v54 main_v55 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_10 (constant S_ .f32 0x44800000#32),
    unary main_cst_10 main_v56 (broadcastInDim S8x4096x1 ![] bcast_S_S8x4096x1 : (⟨S_, .f32⟩ : BufTy).Contents (Elt F) → (⟨S8x4096x1, .f32⟩ : BufTy).Contents (Elt F)),
    binary main_v55 main_v56 main_v57 (Host.divf : (⟨S8x4096x1, .f32⟩ : BufTy).Contents (Elt F) → (⟨S8x4096x1, .f32⟩ : BufTy).Contents (Elt F) → (⟨S8x4096x1, .f32⟩ : BufTy).Contents (Elt F)),
    unary main_v57 main_v58 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v53 main_v58 main_v59 (subf : (⟨S8x4096x1024, .f32⟩ : BufTy).Contents (Elt F) → (⟨S8x4096x1024, .f32⟩ : BufTy).Contents (Elt F) → (⟨S8x4096x1024, .f32⟩ : BufTy).Contents (Elt F)),
    binary main_v59 main_v59 main_v60 (mulf : (⟨S8x4096x1024, .f32⟩ : BufTy).Contents (Elt F) → (⟨S8x4096x1024, .f32⟩ : BufTy).Contents (Elt F) → (⟨S8x4096x1024, .f32⟩ : BufTy).Contents (Elt F)),
    nullary main_cst_11 (constant S_ .f32 0x00000000#32),
    binary main_v60 main_cst_11 main_v61 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v61 main_v62 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_12 (constant S_ .f32 0x447FC000#32),
    unary main_cst_12 main_v63 (broadcastInDim S8x4096x1 ![] bcast_S_S8x4096x1 : (⟨S_, .f32⟩ : BufTy).Contents (Elt F) → (⟨S8x4096x1, .f32⟩ : BufTy).Contents (Elt F)),
    binary main_v62 main_v63 main_v64 (Host.divf : (⟨S8x4096x1, .f32⟩ : BufTy).Contents (Elt F) → (⟨S8x4096x1, .f32⟩ : BufTy).Contents (Elt F) → (⟨S8x4096x1, .f32⟩ : BufTy).Contents (Elt F)),
    unary main_v64 main_v65 (Host.sqrt : (⟨S8x4096x1, .f32⟩ : BufTy).Contents (Elt F) → (⟨S8x4096x1, .f32⟩ : BufTy).Contents (Elt F)),
    unary main_v57 main_v66 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v53 main_v66 main_v67 (subf : (⟨S8x4096x1024, .f32⟩ : BufTy).Contents (Elt F) → (⟨S8x4096x1024, .f32⟩ : BufTy).Contents (Elt F) → (⟨S8x4096x1024, .f32⟩ : BufTy).Contents (Elt F)),
    unary main_arg10 main_v68 (broadcastInDim S1x1x1024 ![2] bcast_S1024_S1x1x1024_2 : (⟨S1024, .f32⟩ : BufTy).Contents (Elt F) → (⟨S1x1x1024, .f32⟩ : BufTy).Contents (Elt F)),
    unary main_v68 main_v69 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v69 main_v67 main_v70 (mulf : (⟨S8x4096x1024, .f32⟩ : BufTy).Contents (Elt F) → (⟨S8x4096x1024, .f32⟩ : BufTy).Contents (Elt F) → (⟨S8x4096x1024, .f32⟩ : BufTy).Contents (Elt F)),
    nullary main_cst_13 (constant S_ .f32 0x358637BD#32),
    unary main_cst_13 main_v71 (broadcastInDim S8x4096x1 ![] bcast_S_S8x4096x1 : (⟨S_, .f32⟩ : BufTy).Contents (Elt F) → (⟨S8x4096x1, .f32⟩ : BufTy).Contents (Elt F)),
    binary main_v65 main_v71 main_v72 (addf : (⟨S8x4096x1, .f32⟩ : BufTy).Contents (Elt F) → (⟨S8x4096x1, .f32⟩ : BufTy).Contents (Elt F) → (⟨S8x4096x1, .f32⟩ : BufTy).Contents (Elt F)),
    unary main_v72 main_v73 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v70 main_v73 main_v74 (Host.divf : (⟨S8x4096x1024, .f32⟩ : BufTy).Contents (Elt F) → (⟨S8x4096x1024, .f32⟩ : BufTy).Contents (Elt F) → (⟨S8x4096x1024, .f32⟩ : BufTy).Contents (Elt F)),
    unary main_arg11 main_v75 (broadcastInDim S1x1x1024 ![2] bcast_S1024_S1x1x1024_2 : (⟨S1024, .f32⟩ : BufTy).Contents (Elt F) → (⟨S1x1x1024, .f32⟩ : BufTy).Contents (Elt F)),
    unary main_v75 main_v76 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v74 main_v76 main_v77 (addf : (⟨S8x4096x1024, .f32⟩ : BufTy).Contents (Elt F) → (⟨S8x4096x1024, .f32⟩ : BufTy).Contents (Elt F) → (⟨S8x4096x1024, .f32⟩ : BufTy).Contents (Elt F)) ]

/-- The host function's operations, in order. -/
abbrev ops : List (HloOp τ sig (Elt F)) :=
  [ binary main_arg0 main_arg2 main_v0 ((fun l r => Host.dotGeneral dot_S8x4096x1024_S1024x1024_S8x4096x1024_2_1_01_0_n_n none l r) : (⟨S8x4096x1024, .f32⟩ : BufTy).Contents (Elt F) → (⟨S1024x1024, .f32⟩ : BufTy).Contents (Elt F) → (⟨S8x4096x1024, .f32⟩ : BufTy).Contents (Elt F)),
    unary main_arg3 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v0 main_v2 main_v3 (addf : (⟨S8x4096x1024, .f32⟩ : BufTy).Contents (Elt F) → (⟨S8x4096x1024, .f32⟩ : BufTy).Contents (Elt F) → (⟨S8x4096x1024, .f32⟩ : BufTy).Contents (Elt F)),
    binary main_v3 main_arg4 main_v4 ((fun l r => Host.dotGeneral dot_S8x4096x1024_S1024x64_S8x4096x64_2_0_01_1_n_n none l r) : (⟨S8x4096x1024, .f32⟩ : BufTy).Contents (Elt F) → (⟨S1024x64, .f32⟩ : BufTy).Contents (Elt F) → (⟨S8x4096x64, .f32⟩ : BufTy).Contents (Elt F)),
    nullary main_cst (constant S_ .f32 0x42000000#32),
    unary main_cst main_v5 (broadcastInDim S8x4096x64 ![] bcast_S_S8x4096x64 : (⟨S_, .f32⟩ : BufTy).Contents (Elt F) → (⟨S8x4096x64, .f32⟩ : BufTy).Contents (Elt F)),
    binary main_v4 main_v5 main_v6 (Host.divf : (⟨S8x4096x64, .f32⟩ : BufTy).Contents (Elt F) → (⟨S8x4096x64, .f32⟩ : BufTy).Contents (Elt F) → (⟨S8x4096x64, .f32⟩ : BufTy).Contents (Elt F)),
    nullary main_cst_0 (constant S_ .f32 0xFF800000#32),
    binary main_v6 main_cst_0 main_v7 ((fun x v => Host.reduce FloatOps.maximumf x v reducesTo_S8x4096x64_S8x4096_d2 h_S_) : (⟨S8x4096x64, .f32⟩ : BufTy).Contents (Elt F) → (⟨S_, .f32⟩ : BufTy).Contents (Elt F) → (⟨S8x4096, .f32⟩ : BufTy).Contents (Elt F)),
    nullary main_cst_1 (constant S_ .f32 0xFF800000#32),
    unary main_cst_1 main_v8 (broadcastInDim S8x4096 ![] bcast_S_S8x4096 : (⟨S_, .f32⟩ : BufTy).Contents (Elt F) → (⟨S8x4096, .f32⟩ : BufTy).Contents (Elt F)),
    binary main_v8 main_v7 main_v9 (maximumf : (⟨S8x4096, .f32⟩ : BufTy).Contents (Elt F) → (⟨S8x4096, .f32⟩ : BufTy).Contents (Elt F) → (⟨S8x4096, .f32⟩ : BufTy).Contents (Elt F)),
    unary main_v9 main_v10 (broadcastInDim S8x4096x1 ![0, 1] bcast_S8x4096_S8x4096x1_0_1 : (⟨S8x4096, .f32⟩ : BufTy).Contents (Elt F) → (⟨S8x4096x1, .f32⟩ : BufTy).Contents (Elt F)),
    unary main_v10 main_v11 (broadcastInDim S8x4096x64 ![0, 1, 2] bcast_S8x4096x1_S8x4096x64_0_1_2 : (⟨S8x4096x1, .f32⟩ : BufTy).Contents (Elt F) → (⟨S8x4096x64, .f32⟩ : BufTy).Contents (Elt F)),
    binary main_v6 main_v11 main_v12 (subf : (⟨S8x4096x64, .f32⟩ : BufTy).Contents (Elt F) → (⟨S8x4096x64, .f32⟩ : BufTy).Contents (Elt F) → (⟨S8x4096x64, .f32⟩ : BufTy).Contents (Elt F)),
    unary main_v12 main_v13 (Host.exp : (⟨S8x4096x64, .f32⟩ : BufTy).Contents (Elt F) → (⟨S8x4096x64, .f32⟩ : BufTy).Contents (Elt F)),
    nullary main_cst_2 (constant S_ .f32 0x00000000#32),
    binary main_v13 main_cst_2 main_v14 ((fun x v => Host.reduceAdd x v reducesTo_S8x4096x64_S8x4096_d2 h_S_) : (⟨S8x4096x64, .f32⟩ : BufTy).Contents (Elt F) → (⟨S_, .f32⟩ : BufTy).Contents (Elt F) → (⟨S8x4096, .f32⟩ : BufTy).Contents (Elt F)),
    unary main_v14 main_v15 (broadcastInDim S8x4096x1 ![0, 1] bcast_S8x4096_S8x4096x1_0_1 : (⟨S8x4096, .f32⟩ : BufTy).Contents (Elt F) → (⟨S8x4096x1, .f32⟩ : BufTy).Contents (Elt F)),
    unary main_v15 main_v16 (broadcastInDim S8x4096x64 ![0, 1, 2] bcast_S8x4096x1_S8x4096x64_0_1_2 : (⟨S8x4096x1, .f32⟩ : BufTy).Contents (Elt F) → (⟨S8x4096x64, .f32⟩ : BufTy).Contents (Elt F)),
    binary main_v13 main_v16 main_v17 (Host.divf : (⟨S8x4096x64, .f32⟩ : BufTy).Contents (Elt F) → (⟨S8x4096x64, .f32⟩ : BufTy).Contents (Elt F) → (⟨S8x4096x64, .f32⟩ : BufTy).Contents (Elt F)),
    unary main_arg1 main_v18 (broadcastInDim S8x4096x1 ![0, 1] bcast_S8x4096_S8x4096x1_0_1 : (⟨S8x4096, .i32⟩ : BufTy).Contents (Elt F) → (⟨S8x4096x1, .i32⟩ : BufTy).Contents (Elt F)),
    unary main_v18 main_v19 (sitofp .f32 : (⟨S8x4096x1, .i32⟩ : BufTy).Contents (Elt F) → (⟨S8x4096x1, .f32⟩ : BufTy).Contents (Elt F)),
    unary main_v19 main_v20 (broadcastInDim S8x4096x64 ![0, 1, 2] bcast_S8x4096x1_S8x4096x64_0_1_2 : (⟨S8x4096x1, .f32⟩ : BufTy).Contents (Elt F) → (⟨S8x4096x64, .f32⟩ : BufTy).Contents (Elt F)),
    binary main_v17 main_v20 main_v21 (mulf : (⟨S8x4096x64, .f32⟩ : BufTy).Contents (Elt F) → (⟨S8x4096x64, .f32⟩ : BufTy).Contents (Elt F) → (⟨S8x4096x64, .f32⟩ : BufTy).Contents (Elt F)),
    binary main_v21 main_arg5 main_v22 ((fun l r => Host.dotGeneral dot_S8x4096x64_S1024x64_S8x4096x1024_2_1_01_0_n_n none l r) : (⟨S8x4096x64, .f32⟩ : BufTy).Contents (Elt F) → (⟨S1024x64, .f32⟩ : BufTy).Contents (Elt F) → (⟨S8x4096x1024, .f32⟩ : BufTy).Contents (Elt F)),
    binary main_arg0 main_v22 main_v23 (addf : (⟨S8x4096x1024, .f32⟩ : BufTy).Contents (Elt F) → (⟨S8x4096x1024, .f32⟩ : BufTy).Contents (Elt F) → (⟨S8x4096x1024, .f32⟩ : BufTy).Contents (Elt F)),
    nullary main_cst_3 (constant S_ .f32 0x00000000#32),
    binary main_v23 main_cst_3 main_v24 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v24 main_v25 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_4 (constant S_ .f32 0x44800000#32),
    unary main_cst_4 main_v26 (broadcastInDim S8x4096x1 ![] bcast_S_S8x4096x1 : (⟨S_, .f32⟩ : BufTy).Contents (Elt F) → (⟨S8x4096x1, .f32⟩ : BufTy).Contents (Elt F)),
    binary main_v25 main_v26 main_v27 (Host.divf : (⟨S8x4096x1, .f32⟩ : BufTy).Contents (Elt F) → (⟨S8x4096x1, .f32⟩ : BufTy).Contents (Elt F) → (⟨S8x4096x1, .f32⟩ : BufTy).Contents (Elt F)),
    unary main_v27 main_v28 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v23 main_v28 main_v29 (subf : (⟨S8x4096x1024, .f32⟩ : BufTy).Contents (Elt F) → (⟨S8x4096x1024, .f32⟩ : BufTy).Contents (Elt F) → (⟨S8x4096x1024, .f32⟩ : BufTy).Contents (Elt F)),
    binary main_v29 main_v29 main_v30 (mulf : (⟨S8x4096x1024, .f32⟩ : BufTy).Contents (Elt F) → (⟨S8x4096x1024, .f32⟩ : BufTy).Contents (Elt F) → (⟨S8x4096x1024, .f32⟩ : BufTy).Contents (Elt F)),
    nullary main_cst_5 (constant S_ .f32 0x00000000#32),
    binary main_v30 main_cst_5 main_v31 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v31 main_v32 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_6 (constant S_ .f32 0x447FC000#32),
    unary main_cst_6 main_v33 (broadcastInDim S8x4096x1 ![] bcast_S_S8x4096x1 : (⟨S_, .f32⟩ : BufTy).Contents (Elt F) → (⟨S8x4096x1, .f32⟩ : BufTy).Contents (Elt F)),
    binary main_v32 main_v33 main_v34 (Host.divf : (⟨S8x4096x1, .f32⟩ : BufTy).Contents (Elt F) → (⟨S8x4096x1, .f32⟩ : BufTy).Contents (Elt F) → (⟨S8x4096x1, .f32⟩ : BufTy).Contents (Elt F)),
    unary main_v34 main_v35 (Host.sqrt : (⟨S8x4096x1, .f32⟩ : BufTy).Contents (Elt F) → (⟨S8x4096x1, .f32⟩ : BufTy).Contents (Elt F)),
    unary main_v27 main_v36 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v23 main_v36 main_v37 (subf : (⟨S8x4096x1024, .f32⟩ : BufTy).Contents (Elt F) → (⟨S8x4096x1024, .f32⟩ : BufTy).Contents (Elt F) → (⟨S8x4096x1024, .f32⟩ : BufTy).Contents (Elt F)),
    unary main_arg6 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v39 main_v37 main_v40 (mulf : (⟨S8x4096x1024, .f32⟩ : BufTy).Contents (Elt F) → (⟨S8x4096x1024, .f32⟩ : BufTy).Contents (Elt F) → (⟨S8x4096x1024, .f32⟩ : BufTy).Contents (Elt F)),
    nullary main_cst_7 (constant S_ .f32 0x358637BD#32),
    unary main_cst_7 main_v41 (broadcastInDim S8x4096x1 ![] bcast_S_S8x4096x1 : (⟨S_, .f32⟩ : BufTy).Contents (Elt F) → (⟨S8x4096x1, .f32⟩ : BufTy).Contents (Elt F)),
    binary main_v35 main_v41 main_v42 (addf : (⟨S8x4096x1, .f32⟩ : BufTy).Contents (Elt F) → (⟨S8x4096x1, .f32⟩ : BufTy).Contents (Elt F) → (⟨S8x4096x1, .f32⟩ : BufTy).Contents (Elt F)),
    unary main_v42 main_v43 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v40 main_v43 main_v44 (Host.divf : (⟨S8x4096x1024, .f32⟩ : BufTy).Contents (Elt F) → (⟨S8x4096x1024, .f32⟩ : BufTy).Contents (Elt F) → (⟨S8x4096x1024, .f32⟩ : BufTy).Contents (Elt F)),
    unary main_arg7 main_v45 (broadcastInDim S1x1x1024 ![2] bcast_S1024_S1x1x1024_2 : (⟨S1024, .f32⟩ : BufTy).Contents (Elt F) → (⟨S1x1x1024, .f32⟩ : BufTy).Contents (Elt F)),
    unary main_v45 main_v46 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v44 main_v46 main_v47 (addf : (⟨S8x4096x1024, .f32⟩ : BufTy).Contents (Elt F) → (⟨S8x4096x1024, .f32⟩ : BufTy).Contents (Elt F) → (⟨S8x4096x1024, .f32⟩ : BufTy).Contents (Elt F)),
    binary main_v47 main_arg8 main_v48 ((fun l r => Host.dotGeneral dot_S8x4096x1024_S1024x1024_S8x4096x1024_2_1_01_0_n_n none l r) : (⟨S8x4096x1024, .f32⟩ : BufTy).Contents (Elt F) → (⟨S1024x1024, .f32⟩ : BufTy).Contents (Elt F) → (⟨S8x4096x1024, .f32⟩ : BufTy).Contents (Elt F)),
    unary main_arg9 main_v49 (broadcastInDim S1x1x1024 ![2] bcast_S1024_S1x1x1024_2 : (⟨S1024, .f32⟩ : BufTy).Contents (Elt F) → (⟨S1x1x1024, .f32⟩ : BufTy).Contents (Elt F)),
    unary main_v49 main_v50 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v48 main_v50 main_v51 (addf : (⟨S8x4096x1024, .f32⟩ : BufTy).Contents (Elt F) → (⟨S8x4096x1024, .f32⟩ : BufTy).Contents (Elt F) → (⟨S8x4096x1024, .f32⟩ : BufTy).Contents (Elt F)),
    nullary main_cst_8 (constant S_ .f32 0x3C23D70A#32),
    TRef.nullary main_call0.cst (constant S_ .f32 0x00000000#32),
    TRef.unary main_call0.cst main_call0.v0 (broadcastInDim S8x4096x1024 ![] bcast_S_S8x4096x1024),
    TRef.binary (.of main_v51) main_call0.v0 main_call0.v1 (cmpf .oge),
    TRef.unary (.of main_cst_8) main_call0.v2 id,
    TRef.unary main_call0.v2 main_call0.v3 (broadcastInDim S8x4096x1024 ![] bcast_S_S8x4096x1024),
    TRef.binary main_call0.v3 (.of main_v51) main_call0.v4 mulf,
    TRef.ternary main_call0.v1 (.of main_v51) main_call0.v4 main_call0.call0.v0 select,
    binary main_v47 main_v52 main_v53 (addf : (⟨S8x4096x1024, .f32⟩ : BufTy).Contents (Elt F) → (⟨S8x4096x1024, .f32⟩ : BufTy).Contents (Elt F) → (⟨S8x4096x1024, .f32⟩ : BufTy).Contents (Elt F)),
    nullary main_cst_9 (constant S_ .f32 0x00000000#32),
    binary main_v53 main_cst_9 main_v54 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v54 main_v55 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_10 (constant S_ .f32 0x44800000#32),
    unary main_cst_10 main_v56 (broadcastInDim S8x4096x1 ![] bcast_S_S8x4096x1 : (⟨S_, .f32⟩ : BufTy).Contents (Elt F) → (⟨S8x4096x1, .f32⟩ : BufTy).Contents (Elt F)),
    binary main_v55 main_v56 main_v57 (Host.divf : (⟨S8x4096x1, .f32⟩ : BufTy).Contents (Elt F) → (⟨S8x4096x1, .f32⟩ : BufTy).Contents (Elt F) → (⟨S8x4096x1, .f32⟩ : BufTy).Contents (Elt F)),
    unary main_v57 main_v58 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v53 main_v58 main_v59 (subf : (⟨S8x4096x1024, .f32⟩ : BufTy).Contents (Elt F) → (⟨S8x4096x1024, .f32⟩ : BufTy).Contents (Elt F) → (⟨S8x4096x1024, .f32⟩ : BufTy).Contents (Elt F)),
    binary main_v59 main_v59 main_v60 (mulf : (⟨S8x4096x1024, .f32⟩ : BufTy).Contents (Elt F) → (⟨S8x4096x1024, .f32⟩ : BufTy).Contents (Elt F) → (⟨S8x4096x1024, .f32⟩ : BufTy).Contents (Elt F)),
    nullary main_cst_11 (constant S_ .f32 0x00000000#32),
    binary main_v60 main_cst_11 main_v61 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v61 main_v62 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_12 (constant S_ .f32 0x447FC000#32),
    unary main_cst_12 main_v63 (broadcastInDim S8x4096x1 ![] bcast_S_S8x4096x1 : (⟨S_, .f32⟩ : BufTy).Contents (Elt F) → (⟨S8x4096x1, .f32⟩ : BufTy).Contents (Elt F)),
    binary main_v62 main_v63 main_v64 (Host.divf : (⟨S8x4096x1, .f32⟩ : BufTy).Contents (Elt F) → (⟨S8x4096x1, .f32⟩ : BufTy).Contents (Elt F) → (⟨S8x4096x1, .f32⟩ : BufTy).Contents (Elt F)),
    unary main_v64 main_v65 (Host.sqrt : (⟨S8x4096x1, .f32⟩ : BufTy).Contents (Elt F) → (⟨S8x4096x1, .f32⟩ : BufTy).Contents (Elt F)),
    unary main_v57 main_v66 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v53 main_v66 main_v67 (subf : (⟨S8x4096x1024, .f32⟩ : BufTy).Contents (Elt F) → (⟨S8x4096x1024, .f32⟩ : BufTy).Contents (Elt F) → (⟨S8x4096x1024, .f32⟩ : BufTy).Contents (Elt F)),
    unary main_arg10 main_v68 (broadcastInDim S1x1x1024 ![2] bcast_S1024_S1x1x1024_2 : (⟨S1024, .f32⟩ : BufTy).Contents (Elt F) → (⟨S1x1x1024, .f32⟩ : BufTy).Contents (Elt F)),
    unary main_v68 main_v69 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v69 main_v67 main_v70 (mulf : (⟨S8x4096x1024, .f32⟩ : BufTy).Contents (Elt F) → (⟨S8x4096x1024, .f32⟩ : BufTy).Contents (Elt F) → (⟨S8x4096x1024, .f32⟩ : BufTy).Contents (Elt F)),
    nullary main_cst_13 (constant S_ .f32 0x358637BD#32),
    unary main_cst_13 main_v71 (broadcastInDim S8x4096x1 ![] bcast_S_S8x4096x1 : (⟨S_, .f32⟩ : BufTy).Contents (Elt F) → (⟨S8x4096x1, .f32⟩ : BufTy).Contents (Elt F)),
    binary main_v65 main_v71 main_v72 (addf : (⟨S8x4096x1, .f32⟩ : BufTy).Contents (Elt F) → (⟨S8x4096x1, .f32⟩ : BufTy).Contents (Elt F) → (⟨S8x4096x1, .f32⟩ : BufTy).Contents (Elt F)),
    unary main_v72 main_v73 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v70 main_v73 main_v74 (Host.divf : (⟨S8x4096x1024, .f32⟩ : BufTy).Contents (Elt F) → (⟨S8x4096x1024, .f32⟩ : BufTy).Contents (Elt F) → (⟨S8x4096x1024, .f32⟩ : BufTy).Contents (Elt F)),
    unary main_arg11 main_v75 (broadcastInDim S1x1x1024 ![2] bcast_S1024_S1x1x1024_2 : (⟨S1024, .f32⟩ : BufTy).Contents (Elt F) → (⟨S1x1x1024, .f32⟩ : BufTy).Contents (Elt F)),
    unary main_v75 main_v76 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v74 main_v76 main_v77 (addf : (⟨S8x4096x1024, .f32⟩ : BufTy).Contents (Elt F) → (⟨S8x4096x1024, .f32⟩ : BufTy).Contents (Elt F) → (⟨S8x4096x1024, .f32⟩ : BufTy).Contents (Elt F)) ]

theorem ops_eq : (ops : List (HloOp τ sig (Elt F))) = ops0 ++ ops1 := rfl

set_option maxRecDepth 4096 in
set_option maxHeartbeats 4000000 in
/-- The first window is the straight line of its sixty operations. -/
theorem part0_eq (c : Dev nD) : main_part0 (F := F) c = seq ops0 := by
  simp only [main_part0, seq, bind_assoc, pure_bind]
  rfl

set_option maxRecDepth 4096 in
set_option maxHeartbeats 4000000 in
/-- The second window is the straight line of its operations, the two outlined functions unfolded at the call. -/
theorem part1_eq (c : Dev nD) : main_part1 (F := F) c = seq ops1 := by
  simp only [main_part1, fn_leaky_relu.body, fn_where.body, seq, bind_assoc, pure_bind]

/-- The host function is that straight line. -/
theorem main_eq (c : Dev nD) : main (F := F) c = seq ops := by
  rw [ops_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., unary_bufs_sub .., unary_bufs_sub ..,
    unary_bufs_sub .., binary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub ..⟩

/-- From any memory with zero counters every weakly fair execution of the host function terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.RefAligned.lean ====
/-
  The reference's straight line read operation by operation. Operation j of the line writes exactly reference j of
  the list `W`, and no reference is written twice; so the final contents of each written buffer are its operation's
  function of the FINAL contents of its operands, and the twelve argument buffers keep their contents.
-/
import proofs.«128733_j28432683499590_1_alg».proof.Proof.RefRun
import proofs.«128733_j28432683499590_1_alg».proof.Proof.LibAlignedLines
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.StableHlo.AlignedLines

/-- The references the operations write, in order. -/
abbrev W : List (Ref sig .tc) :=
  [ main_v0, main_v1, main_v2, main_v3, main_v4, main_cst, main_v5, main_v6,
    main_cst_0, main_v7, main_cst_1, main_v8, main_v9, main_v10, main_v11, main_v12,
    main_v13, main_cst_2, main_v14, main_v15, main_v16, main_v17, main_v18, main_v19,
    main_v20, main_v21, main_v22, main_v23, main_cst_3, main_v24, main_v25, main_cst_4,
    main_v26, main_v27, main_v28, main_v29, main_v30, main_cst_5, main_v31, main_v32,
    main_cst_6, main_v33, main_v34, main_v35, main_v36, main_v37, main_v38, main_v39,
    main_v40, main_cst_7, main_v41, main_v42, main_v43, main_v44, main_v45, main_v46,
    main_v47, main_v48, main_v49, main_v50, main_v51, main_cst_8, main_call0_cst, main_call0_v0,
    main_call0_v1, main_call0_v2, main_call0_v3, main_call0_v4, main_v52, main_v53, main_cst_9, main_v54,
    main_v55, main_cst_10, main_v56, main_v57, main_v58, main_v59, main_v60, main_cst_11,
    main_v61, main_v62, main_cst_12, main_v63, main_v64, main_v65, main_v66, main_v67,
    main_v68, main_v69, main_v70, main_cst_13, main_v71, main_v72, main_v73, main_v74,
    main_v75, main_v76, main_v77 ]

/-- Operation j writes exactly reference j. -/
theorem aligned {F : FTy → Type} [FloatOps F] : Aligned (ops (F := F)) W := by
  unfold Aligned
  repeat (first | exact List.Forall₂.nil | refine List.Forall₂.cons rfl ?_)

variable (V : Valuation τ sig (Elt Ideal))

/-- The final contents of a buffer. -/
abbrev fc (r : Ref sig .tc) : r.ty.Contents (Elt Ideal) := after (ops (F := Ideal)) V (Proc.devRef .tc r)

/-! The arguments are never written. -/

theorem e_arg0 : fc V main_arg0 = V (Proc.devRef .tc main_arg0) :=
  aligned.after_of_not_mem V (by decide)
theorem e_arg1 : fc V main_arg1 = V (Proc.devRef .tc main_arg1) :=
  aligned.after_of_not_mem V (by decide)
theorem e_arg2 : fc V main_arg2 = V (Proc.devRef .tc main_arg2) :=
  aligned.after_of_not_mem V (by decide)
theorem e_arg3 : fc V main_arg3 = V (Proc.devRef .tc main_arg3) :=
  aligned.after_of_not_mem V (by decide)
theorem e_arg4 : fc V main_arg4 = V (Proc.devRef .tc main_arg4) :=
  aligned.after_of_not_mem V (by decide)
theorem e_arg5 : fc V main_arg5 = V (Proc.devRef .tc main_arg5) :=
  aligned.after_of_not_mem V (by decide)
theorem e_arg6 : fc V main_arg6 = V (Proc.devRef .tc main_arg6) :=
  aligned.after_of_not_mem V (by decide)
theorem e_arg7 : fc V main_arg7 = V (Proc.devRef .tc main_arg7) :=
  aligned.after_of_not_mem V (by decide)
theorem e_arg8 : fc V main_arg8 = V (Proc.devRef .tc main_arg8) :=
  aligned.after_of_not_mem V (by decide)
theorem e_arg9 : fc V main_arg9 = V (Proc.devRef .tc main_arg9) :=
  aligned.after_of_not_mem V (by decide)
theorem e_arg10 : fc V main_arg10 = V (Proc.devRef .tc main_arg10) :=
  aligned.after_of_not_mem V (by decide)
theorem e_arg11 : fc V main_arg11 = V (Proc.devRef .tc main_arg11) :=
  aligned.after_of_not_mem V (by decide)

/-! Each written buffer ends at its operation's function of its operands' final contents. -/

theorem e_v0 : fc V main_v0 = Host.dotGeneral (F := Ideal) (φ₁ := .f32) (φ₂ := .f32) dot_S8x4096x1024_S1024x1024_S8x4096x1024_2_1_01_0_n_n none (fc V main_arg0) (fc V main_arg2) :=
  (aligned.binary_at V 0 rfl (by decide) (by decide) (by decide) :)
theorem e_v1 : fc V main_v1 = broadcastInDim (α := Ideal .f32) S1x1x1024 ![2] bcast_S1024_S1x1x1024_2 (fc V main_arg3) :=
  (aligned.unary_at V 1 rfl (by decide) (by decide) :)
theorem e_v2 : fc V main_v2 = broadcastInDim (α := Ideal .f32) S8x4096x1024 ![0, 1, 2] bcast_S1x1x1024_S8x4096x1024_0_1_2 (fc V main_v1) :=
  (aligned.unary_at V 2 rfl (by decide) (by decide) :)
theorem e_v3 : fc V main_v3 = addf (F := Ideal) (s := S8x4096x1024) (φ := .f32) (fc V main_v0) (fc V main_v2) :=
  (aligned.binary_at V 3 rfl (by decide) (by decide) (by decide) :)
theorem e_v4 : fc V main_v4 = Host.dotGeneral (F := Ideal) (φ₁ := .f32) (φ₂ := .f32) dot_S8x4096x1024_S1024x64_S8x4096x64_2_0_01_1_n_n none (fc V main_v3) (fc V main_arg4) :=
  (aligned.binary_at V 4 rfl (by decide) (by decide) (by decide) :)
theorem e_cst : fc V main_cst = constant (F := Ideal) S_ .f32 0x42000000#32 :=
  (aligned.nullary_at V 5 rfl (by decide) :)
theorem e_v5 : fc V main_v5 = broadcastInDim (α := Ideal .f32) S8x4096x64 ![] bcast_S_S8x4096x64 (fc V main_cst) :=
  (aligned.unary_at V 6 rfl (by decide) (by decide) :)
theorem e_v6 : fc V main_v6 = Host.divf (F := Ideal) (s := S8x4096x64) (φ := .f32) (fc V main_v4) (fc V main_v5) :=
  (aligned.binary_at V 7 rfl (by decide) (by decide) (by decide) :)
theorem e_cst_0 : fc V main_cst_0 = constant (F := Ideal) S_ .f32 0xFF800000#32 :=
  (aligned.nullary_at V 8 rfl (by decide) :)
theorem e_v7 : fc V main_v7 = Host.reduce (s := S8x4096x64) (α := Ideal .f32) (u := S_) (FloatOps.maximumf (F := Ideal) (φ := .f32)) (fc V main_v6) (fc V main_cst_0) reducesTo_S8x4096x64_S8x4096_d2 h_S_ :=
  (aligned.binary_at V 9 rfl (by decide) (by decide) (by decide) :)
theorem e_cst_1 : fc V main_cst_1 = constant (F := Ideal) S_ .f32 0xFF800000#32 :=
  (aligned.nullary_at V 10 rfl (by decide) :)
theorem e_v8 : fc V main_v8 = broadcastInDim (α := Ideal .f32) S8x4096 ![] bcast_S_S8x4096 (fc V main_cst_1) :=
  (aligned.unary_at V 11 rfl (by decide) (by decide) :)
theorem e_v9 : fc V main_v9 = maximumf (F := Ideal) (s := S8x4096) (φ := .f32) (fc V main_v8) (fc V main_v7) :=
  (aligned.binary_at V 12 rfl (by decide) (by decide) (by decide) :)
theorem e_v10 : fc V main_v10 = broadcastInDim (α := Ideal .f32) S8x4096x1 ![0, 1] bcast_S8x4096_S8x4096x1_0_1 (fc V main_v9) :=
  (aligned.unary_at V 13 rfl (by decide) (by decide) :)
theorem e_v11 : fc V main_v11 = broadcastInDim (α := Ideal .f32) S8x4096x64 ![0, 1, 2] bcast_S8x4096x1_S8x4096x64_0_1_2 (fc V main_v10) :=
  (aligned.unary_at V 14 rfl (by decide) (by decide) :)
theorem e_v12 : fc V main_v12 = subf (F := Ideal) (s := S8x4096x64) (φ := .f32) (fc V main_v6) (fc V main_v11) :=
  (aligned.binary_at V 15 rfl (by decide) (by decide) (by decide) :)
theorem e_v13 : fc V main_v13 = Host.exp (F := Ideal) (s := S8x4096x64) (φ := .f32) (fc V main_v12) :=
  (aligned.unary_at V 16 rfl (by decide) (by decide) :)
theorem e_cst_2 : fc V main_cst_2 = constant (F := Ideal) S_ .f32 0x00000000#32 :=
  (aligned.nullary_at V 17 rfl (by decide) :)
theorem e_v14 : fc V main_v14 = Host.reduceAdd (F := Ideal) (s := S8x4096x64) (φ := .f32) (u := S_) (fc V main_v13) (fc V main_cst_2) reducesTo_S8x4096x64_S8x4096_d2 h_S_ :=
  (aligned.binary_at V 18 rfl (by decide) (by decide) (by decide) :)
theorem e_v15 : fc V main_v15 = broadcastInDim (α := Ideal .f32) S8x4096x1 ![0, 1] bcast_S8x4096_S8x4096x1_0_1 (fc V main_v14) :=
  (aligned.unary_at V 19 rfl (by decide) (by decide) :)
theorem e_v16 : fc V main_v16 = broadcastInDim (α := Ideal .f32) S8x4096x64 ![0, 1, 2] bcast_S8x4096x1_S8x4096x64_0_1_2 (fc V main_v15) :=
  (aligned.unary_at V 20 rfl (by decide) (by decide) :)
theorem e_v17 : fc V main_v17 = Host.divf (F := Ideal) (s := S8x4096x64) (φ := .f32) (fc V main_v13) (fc V main_v16) :=
  (aligned.binary_at V 21 rfl (by decide) (by decide) (by decide) :)
theorem e_v18 : fc V main_v18 = broadcastInDim (α := BitVec 32) S8x4096x1 ![0, 1] bcast_S8x4096_S8x4096x1_0_1 (fc V main_arg1) :=
  (aligned.unary_at V 22 rfl (by decide) (by decide) :)
theorem e_v19 : fc V main_v19 = sitofp (F := Ideal) (s := S8x4096x1) (w := 32) .f32 (fc V main_v18) :=
  (aligned.unary_at V 23 rfl (by decide) (by decide) :)
theorem e_v20 : fc V main_v20 = broadcastInDim (α := Ideal .f32) S8x4096x64 ![0, 1, 2] bcast_S8x4096x1_S8x4096x64_0_1_2 (fc V main_v19) :=
  (aligned.unary_at V 24 rfl (by decide) (by decide) :)
theorem e_v21 : fc V main_v21 = mulf (F := Ideal) (s := S8x4096x64) (φ := .f32) (fc V main_v17) (fc V main_v20) :=
  (aligned.binary_at V 25 rfl (by decide) (by decide) (by decide) :)
theorem e_v22 : fc V main_v22 = Host.dotGeneral (F := Ideal) (φ₁ := .f32) (φ₂ := .f32) dot_S8x4096x64_S1024x64_S8x4096x1024_2_1_01_0_n_n none (fc V main_v21) (fc V main_arg5) :=
  (aligned.binary_at V 26 rfl (by decide) (by decide) (by decide) :)
theorem e_v23 : fc V main_v23 = addf (F := Ideal) (s := S8x4096x1024) (φ := .f32) (fc V main_arg0) (fc V main_v22) :=
  (aligned.binary_at V 27 rfl (by decide) (by decide) (by decide) :)
theorem e_cst_3 : fc V main_cst_3 = constant (F := Ideal) S_ .f32 0x00000000#32 :=
  (aligned.nullary_at V 28 rfl (by decide) :)
theorem e_v24 : fc V main_v24 = Host.reduceAdd (F := Ideal) (s := S8x4096x1024) (φ := .f32) (u := S_) (fc V main_v23) (fc V main_cst_3) reducesTo_S8x4096x1024_S8x4096_d2 h_S_ :=
  (aligned.binary_at V 29 rfl (by decide) (by decide) (by decide) :)
theorem e_v25 : fc V main_v25 = broadcastInDim (α := Ideal .f32) S8x4096x1 ![0, 1] bcast_S8x4096_S8x4096x1_0_1 (fc V main_v24) :=
  (aligned.unary_at V 30 rfl (by decide) (by decide) :)
theorem e_cst_4 : fc V main_cst_4 = constant (F := Ideal) S_ .f32 0x44800000#32 :=
  (aligned.nullary_at V 31 rfl (by decide) :)
theorem e_v26 : fc V main_v26 = broadcastInDim (α := Ideal .f32) S8x4096x1 ![] bcast_S_S8x4096x1 (fc V main_cst_4) :=
  (aligned.unary_at V 32 rfl (by decide) (by decide) :)
theorem e_v27 : fc V main_v27 = Host.divf (F := Ideal) (s := S8x4096x1) (φ := .f32) (fc V main_v25) (fc V main_v26) :=
  (aligned.binary_at V 33 rfl (by decide) (by decide) (by decide) :)
theorem e_v28 : fc V main_v28 = broadcastInDim (α := Ideal .f32) S8x4096x1024 ![0, 1, 2] bcast_S8x4096x1_S8x4096x1024_0_1_2 (fc V main_v27) :=
  (aligned.unary_at V 34 rfl (by decide) (by decide) :)
theorem e_v29 : fc V main_v29 = subf (F := Ideal) (s := S8x4096x1024) (φ := .f32) (fc V main_v23) (fc V main_v28) :=
  (aligned.binary_at V 35 rfl (by decide) (by decide) (by decide) :)
theorem e_v30 : fc V main_v30 = mulf (F := Ideal) (s := S8x4096x1024) (φ := .f32) (fc V main_v29) (fc V main_v29) :=
  (aligned.binary_at V 36 rfl (by decide) (by decide) (by decide) :)
theorem e_cst_5 : fc V main_cst_5 = constant (F := Ideal) S_ .f32 0x00000000#32 :=
  (aligned.nullary_at V 37 rfl (by decide) :)
theorem e_v31 : fc V main_v31 = Host.reduceAdd (F := Ideal) (s := S8x4096x1024) (φ := .f32) (u := S_) (fc V main_v30) (fc V main_cst_5) reducesTo_S8x4096x1024_S8x4096_d2 h_S_ :=
  (aligned.binary_at V 38 rfl (by decide) (by decide) (by decide) :)
theorem e_v32 : fc V main_v32 = broadcastInDim (α := Ideal .f32) S8x4096x1 ![0, 1] bcast_S8x4096_S8x4096x1_0_1 (fc V main_v31) :=
  (aligned.unary_at V 39 rfl (by decide) (by decide) :)
theorem e_cst_6 : fc V main_cst_6 = constant (F := Ideal) S_ .f32 0x447FC000#32 :=
  (aligned.nullary_at V 40 rfl (by decide) :)
theorem e_v33 : fc V main_v33 = broadcastInDim (α := Ideal .f32) S8x4096x1 ![] bcast_S_S8x4096x1 (fc V main_cst_6) :=
  (aligned.unary_at V 41 rfl (by decide) (by decide) :)
theorem e_v34 : fc V main_v34 = Host.divf (F := Ideal) (s := S8x4096x1) (φ := .f32) (fc V main_v32) (fc V main_v33) :=
  (aligned.binary_at V 42 rfl (by decide) (by decide) (by decide) :)
theorem e_v35 : fc V main_v35 = Host.sqrt (F := Ideal) (s := S8x4096x1) (φ := .f32) (fc V main_v34) :=
  (aligned.unary_at V 43 rfl (by decide) (by decide) :)
theorem e_v36 : fc V main_v36 = broadcastInDim (α := Ideal .f32) S8x4096x1024 ![0, 1, 2] bcast_S8x4096x1_S8x4096x1024_0_1_2 (fc V main_v27) :=
  (aligned.unary_at V 44 rfl (by decide) (by decide) :)
theorem e_v37 : fc V main_v37 = subf (F := Ideal) (s := S8x4096x1024) (φ := .f32) (fc V main_v23) (fc V main_v36) :=
  (aligned.binary_at V 45 rfl (by decide) (by decide) (by decide) :)
theorem e_v38 : fc V main_v38 = broadcastInDim (α := Ideal .f32) S1x1x1024 ![2] bcast_S1024_S1x1x1024_2 (fc V main_arg6) :=
  (aligned.unary_at V 46 rfl (by decide) (by decide) :)
theorem e_v39 : fc V main_v39 = broadcastInDim (α := Ideal .f32) S8x4096x1024 ![0, 1, 2] bcast_S1x1x1024_S8x4096x1024_0_1_2 (fc V main_v38) :=
  (aligned.unary_at V 47 rfl (by decide) (by decide) :)
theorem e_v40 : fc V main_v40 = mulf (F := Ideal) (s := S8x4096x1024) (φ := .f32) (fc V main_v39) (fc V main_v37) :=
  (aligned.binary_at V 48 rfl (by decide) (by decide) (by decide) :)
theorem e_cst_7 : fc V main_cst_7 = constant (F := Ideal) S_ .f32 0x358637BD#32 :=
  (aligned.nullary_at V 49 rfl (by decide) :)
theorem e_v41 : fc V main_v41 = broadcastInDim (α := Ideal .f32) S8x4096x1 ![] bcast_S_S8x4096x1 (fc V main_cst_7) :=
  (aligned.unary_at V 50 rfl (by decide) (by decide) :)
theorem e_v42 : fc V main_v42 = addf (F := Ideal) (s := S8x4096x1) (φ := .f32) (fc V main_v35) (fc V main_v41) :=
  (aligned.binary_at V 51 rfl (by decide) (by decide) (by decide) :)
theorem e_v43 : fc V main_v43 = broadcastInDim (α := Ideal .f32) S8x4096x1024 ![0, 1, 2] bcast_S8x4096x1_S8x4096x1024_0_1_2 (fc V main_v42) :=
  (aligned.unary_at V 52 rfl (by decide) (by decide) :)
theorem e_v44 : fc V main_v44 = Host.divf (F := Ideal) (s := S8x4096x1024) (φ := .f32) (fc V main_v40) (fc V main_v43) :=
  (aligned.binary_at V 53 rfl (by decide) (by decide) (by decide) :)
theorem e_v45 : fc V main_v45 = broadcastInDim (α := Ideal .f32) S1x1x1024 ![2] bcast_S1024_S1x1x1024_2 (fc V main_arg7) :=
  (aligned.unary_at V 54 rfl (by decide) (by decide) :)
theorem e_v46 : fc V main_v46 = broadcastInDim (α := Ideal .f32) S8x4096x1024 ![0, 1, 2] bcast_S1x1x1024_S8x4096x1024_0_1_2 (fc V main_v45) :=
  (aligned.unary_at V 55 rfl (by decide) (by decide) :)
theorem e_v47 : fc V main_v47 = addf (F := Ideal) (s := S8x4096x1024) (φ := .f32) (fc V main_v44) (fc V main_v46) :=
  (aligned.binary_at V 56 rfl (by decide) (by decide) (by decide) :)
theorem e_v48 : fc V main_v48 = Host.dotGeneral (F := Ideal) (φ₁ := .f32) (φ₂ := .f32) dot_S8x4096x1024_S1024x1024_S8x4096x1024_2_1_01_0_n_n none (fc V main_v47) (fc V main_arg8) :=
  (aligned.binary_at V 57 rfl (by decide) (by decide) (by decide) :)
theorem e_v49 : fc V main_v49 = broadcastInDim (α := Ideal .f32) S1x1x1024 ![2] bcast_S1024_S1x1x1024_2 (fc V main_arg9) :=
  (aligned.unary_at V 58 rfl (by decide) (by decide) :)
theorem e_v50 : fc V main_v50 = broadcastInDim (α := Ideal .f32) S8x4096x1024 ![0, 1, 2] bcast_S1x1x1024_S8x4096x1024_0_1_2 (fc V main_v49) :=
  (aligned.unary_at V 59 rfl (by decide) (by decide) :)
theorem e_v51 : fc V main_v51 = addf (F := Ideal) (s := S8x4096x1024) (φ := .f32) (fc V main_v48) (fc V main_v50) :=
  (aligned.binary_at V 60 rfl (by decide) (by decide) (by decide) :)
theorem e_cst_8 : fc V main_cst_8 = constant (F := Ideal) S_ .f32 0x3C23D70A#32 :=
  (aligned.nullary_at V 61 rfl (by decide) :)
theorem e_call0_cst : fc V main_call0_cst = constant (F := Ideal) S_ .f32 0x00000000#32 :=
  (aligned.nullary_at V 62 rfl (by decide) :)
theorem e_call0_v0 : fc V main_call0_v0 = broadcastInDim (α := Ideal .f32) S8x4096x1024 ![] bcast_S_S8x4096x1024 (fc V main_call0_cst) :=
  (aligned.unary_at V 63 rfl (by decide) (by decide) :)
theorem e_call0_v1 : fc V main_call0_v1 = cmpf (F := Ideal) (s := S8x4096x1024) (φ := .f32) .oge (fc V main_v51) (fc V main_call0_v0) :=
  (aligned.binary_at V 64 rfl (by decide) (by decide) (by decide) :)
theorem e_call0_v2 : fc V main_call0_v2 = fc V main_cst_8 :=
  (aligned.unary_at V 65 rfl (by decide) (by decide) :)
theorem e_call0_v3 : fc V main_call0_v3 = broadcastInDim (α := Ideal .f32) S8x4096x1024 ![] bcast_S_S8x4096x1024 (fc V main_call0_v2) :=
  (aligned.unary_at V 66 rfl (by decide) (by decide) :)
theorem e_call0_v4 : fc V main_call0_v4 = mulf (F := Ideal) (s := S8x4096x1024) (φ := .f32) (fc V main_call0_v3) (fc V main_v51) :=
  (aligned.binary_at V 67 rfl (by decide) (by decide) (by decide) :)
set_option maxHeartbeats 1600000 in
theorem e_v52 : fc V main_v52 = select (s := S8x4096x1024) (α := Ideal .f32) (fc V main_call0_v1) (fc V main_v51) (fc V main_call0_v4) :=
  (aligned.ternary_at V 68 rfl (by decide) (by decide) (by decide) (by decide) :)
theorem e_v53 : fc V main_v53 = addf (F := Ideal) (s := S8x4096x1024) (φ := .f32) (fc V main_v47) (fc V main_v52) :=
  (aligned.binary_at V 69 rfl (by decide) (by decide) (by decide) :)
theorem e_cst_9 : fc V main_cst_9 = constant (F := Ideal) S_ .f32 0x00000000#32 :=
  (aligned.nullary_at V 70 rfl (by decide) :)
theorem e_v54 : fc V main_v54 = Host.reduceAdd (F := Ideal) (s := S8x4096x1024) (φ := .f32) (u := S_) (fc V main_v53) (fc V main_cst_9) reducesTo_S8x4096x1024_S8x4096_d2 h_S_ :=
  (aligned.binary_at V 71 rfl (by decide) (by decide) (by decide) :)
theorem e_v55 : fc V main_v55 = broadcastInDim (α := Ideal .f32) S8x4096x1 ![0, 1] bcast_S8x4096_S8x4096x1_0_1 (fc V main_v54) :=
  (aligned.unary_at V 72 rfl (by decide) (by decide) :)
theorem e_cst_10 : fc V main_cst_10 = constant (F := Ideal) S_ .f32 0x44800000#32 :=
  (aligned.nullary_at V 73 rfl (by decide) :)
theorem e_v56 : fc V main_v56 = broadcastInDim (α := Ideal .f32) S8x4096x1 ![] bcast_S_S8x4096x1 (fc V main_cst_10) :=
  (aligned.unary_at V 74 rfl (by decide) (by decide) :)
theorem e_v57 : fc V main_v57 = Host.divf (F := Ideal) (s := S8x4096x1) (φ := .f32) (fc V main_v55) (fc V main_v56) :=
  (aligned.binary_at V 75 rfl (by decide) (by decide) (by decide) :)
theorem e_v58 : fc V main_v58 = broadcastInDim (α := Ideal .f32) S8x4096x1024 ![0, 1, 2] bcast_S8x4096x1_S8x4096x1024_0_1_2 (fc V main_v57) :=
  (aligned.unary_at V 76 rfl (by decide) (by decide) :)
theorem e_v59 : fc V main_v59 = subf (F := Ideal) (s := S8x4096x1024) (φ := .f32) (fc V main_v53) (fc V main_v58) :=
  (aligned.binary_at V 77 rfl (by decide) (by decide) (by decide) :)
theorem e_v60 : fc V main_v60 = mulf (F := Ideal) (s := S8x4096x1024) (φ := .f32) (fc V main_v59) (fc V main_v59) :=
  (aligned.binary_at V 78 rfl (by decide) (by decide) (by decide) :)
theorem e_cst_11 : fc V main_cst_11 = constant (F := Ideal) S_ .f32 0x00000000#32 :=
  (aligned.nullary_at V 79 rfl (by decide) :)
theorem e_v61 : fc V main_v61 = Host.reduceAdd (F := Ideal) (s := S8x4096x1024) (φ := .f32) (u := S_) (fc V main_v60) (fc V main_cst_11) reducesTo_S8x4096x1024_S8x4096_d2 h_S_ :=
  (aligned.binary_at V 80 rfl (by decide) (by decide) (by decide) :)
theorem e_v62 : fc V main_v62 = broadcastInDim (α := Ideal .f32) S8x4096x1 ![0, 1] bcast_S8x4096_S8x4096x1_0_1 (fc V main_v61) :=
  (aligned.unary_at V 81 rfl (by decide) (by decide) :)
theorem e_cst_12 : fc V main_cst_12 = constant (F := Ideal) S_ .f32 0x447FC000#32 :=
  (aligned.nullary_at V 82 rfl (by decide) :)
theorem e_v63 : fc V main_v63 = broadcastInDim (α := Ideal .f32) S8x4096x1 ![] bcast_S_S8x4096x1 (fc V main_cst_12) :=
  (aligned.unary_at V 83 rfl (by decide) (by decide) :)
theorem e_v64 : fc V main_v64 = Host.divf (F := Ideal) (s := S8x4096x1) (φ := .f32) (fc V main_v62) (fc V main_v63) :=
  (aligned.binary_at V 84 rfl (by decide) (by decide) (by decide) :)
theorem e_v65 : fc V main_v65 = Host.sqrt (F := Ideal) (s := S8x4096x1) (φ := .f32) (fc V main_v64) :=
  (aligned.unary_at V 85 rfl (by decide) (by decide) :)
theorem e_v66 : fc V main_v66 = broadcastInDim (α := Ideal .f32) S8x4096x1024 ![0, 1, 2] bcast_S8x4096x1_S8x4096x1024_0_1_2 (fc V main_v57) :=
  (aligned.unary_at V 86 rfl (by decide) (by decide) :)
theorem e_v67 : fc V main_v67 = subf (F := Ideal) (s := S8x4096x1024) (φ := .f32) (fc V main_v53) (fc V main_v66) :=
  (aligned.binary_at V 87 rfl (by decide) (by decide) (by decide) :)
theorem e_v68 : fc V main_v68 = broadcastInDim (α := Ideal .f32) S1x1x1024 ![2] bcast_S1024_S1x1x1024_2 (fc V main_arg10) :=
  (aligned.unary_at V 88 rfl (by decide) (by decide) :)
theorem e_v69 : fc V main_v69 = broadcastInDim (α := Ideal .f32) S8x4096x1024 ![0, 1, 2] bcast_S1x1x1024_S8x4096x1024_0_1_2 (fc V main_v68) :=
  (aligned.unary_at V 89 rfl (by decide) (by decide) :)
theorem e_v70 : fc V main_v70 = mulf (F := Ideal) (s := S8x4096x1024) (φ := .f32) (fc V main_v69) (fc V main_v67) :=
  (aligned.binary_at V 90 rfl (by decide) (by decide) (by decide) :)
theorem e_cst_13 : fc V main_cst_13 = constant (F := Ideal) S_ .f32 0x358637BD#32 :=
  (aligned.nullary_at V 91 rfl (by decide) :)
theorem e_v71 : fc V main_v71 = broadcastInDim (α := Ideal .f32) S8x4096x1 ![] bcast_S_S8x4096x1 (fc V main_cst_13) :=
  (aligned.unary_at V 92 rfl (by decide) (by decide) :)
theorem e_v72 : fc V main_v72 = addf (F := Ideal) (s := S8x4096x1) (φ := .f32) (fc V main_v65) (fc V main_v71) :=
  (aligned.binary_at V 93 rfl (by decide) (by decide) (by decide) :)
theorem e_v73 : fc V main_v73 = broadcastInDim (α := Ideal .f32) S8x4096x1024 ![0, 1, 2] bcast_S8x4096x1_S8x4096x1024_0_1_2 (fc V main_v72) :=
  (aligned.unary_at V 94 rfl (by decide) (by decide) :)
theorem e_v74 : fc V main_v74 = Host.divf (F := Ideal) (s := S8x4096x1024) (φ := .f32) (fc V main_v70) (fc V main_v73) :=
  (aligned.binary_at V 95 rfl (by decide) (by decide) (by decide) :)
theorem e_v75 : fc V main_v75 = broadcastInDim (α := Ideal .f32) S1x1x1024 ![2] bcast_S1024_S1x1x1024_2 (fc V main_arg11) :=
  (aligned.unary_at V 96 rfl (by decide) (by decide) :)
theorem e_v76 : fc V main_v76 = broadcastInDim (α := Ideal .f32) S8x4096x1024 ![0, 1, 2] bcast_S1x1x1024_S8x4096x1024_0_1_2 (fc V main_v75) :=
  (aligned.unary_at V 97 rfl (by decide) (by decide) :)
theorem e_v77 : fc V main_v77 = addf (F := Ideal) (s := S8x4096x1024) (φ := .f32) (fc V main_v74) (fc V main_v76) :=
  (aligned.binary_at V 98 rfl (by decide) (by decide) (by decide) :)

end Cert.ReferenceIdeal.RefRun

end
-- ==== Proof.LibRank3Host.lean ====
/-
  Host layout operations, products and reductions on rank-3 arrays, read at coordinates, for any extents.
  • a vector [c] laid on the last axis of [1, 1, c], and [1, 1, c] spread to [a, b, c]: at (p, m, f) the vector at f;
  • a per-row array [a, b] laid as [a, b, 1], and [a, b, 1] spread along the last axis to [a, b, c]: at (p, m, f) the
    value of row (p, m);
  • the host's product of [a, b, k] with a matrix, contracting the last axis against the matrix's second axis
    (entry (p, m, e) = ∑ j, lhs (p, m, j) · rhs (e, j)) or against its first axis (∑ j, lhs (p, m, j) · rhs (j, e));
  • the host's float sum and its maximum over the last axis: the initial value plus the sum, the fold of max.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibRank3Host

open Idealize.ShloMosaic Idealize.ShloMosaic.ValueIdx

variable {α : Type}

/-! ## Broadcasts -/

/-- A vector [c] laid on the last axis of [1, 1, c] reads, at (p, m, f), the vector at f. -/
theorem bcast_c_11c {c : ℕ} (x : (⟨1, ![c]⟩ : Shape).Idx → α)
    (h : (⟨1, ![c]⟩ : Shape).BroadcastsInDim ⟨3, ![1, 1, c]⟩ (![2] : Fin 1 → Fin 3)) (p m : Fin 1) (f : Fin c) :
    broadcastInDim ⟨3, ![1, 1, c]⟩ (![2] : Fin 1 → Fin 3) h x (ix3 p m f) = x (ix1 f) := by
  refine broadcastInDim_apply _ h x (ix3 p m f) (ix1 f) fun ax => ?_
  match ax with
  | ⟨0, _⟩ =>
    show f.val = if c = 1 then 0 else f.val
    split
    · have := f.isLt; omega
    · rfl

/-- [1, 1, c] spread to [a, b, c] reads, at (p, m, f), the operand at (0, 0, f). -/
theorem bcast_11c_abc {a b c : ℕ} (x : (⟨3, ![1, 1, c]⟩ : Shape).Idx → α)
    (h : (⟨3, ![1, 1, c]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h x (ix3 p m f) = x (ix3 (0 : Fin 1) (0 : Fin 1) f) := by
  refine broadcastInDim_apply _ h x (ix3 p m f) (ix3 (0 : Fin 1) (0 : Fin 1) f) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else m.val
    rw [if_pos rfl]
  | ⟨2, _⟩ =>
    show f.val = if c = 1 then 0 else f.val
    split
    · have := f.isLt; omega
    · rfl

/-- A vector laid on the last axis and spread over the first two reads, at (p, m, f), the vector at f. -/
theorem bcast_vec_abc {a b c : ℕ} (x : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h2
        (broadcastInDim ⟨3, ![1, 1, c]⟩ (![2] : Fin 1 → Fin 3) h1 x) (ix3 p m f) = x (ix1 f) :=
  (bcast_11c_abc _ h2 p m f).trans (bcast_c_11c x h1 0 0 f)

/-- A per-row array [a, b] laid as [a, b, 1] reads, at (p, m, u), the value of row (p, m). -/
theorem bcast_ab_ab1 {a b : ℕ} (x : (⟨2, ![a, b]⟩ : Shape).Idx → α)
    (h : (⟨2, ![a, b]⟩ : Shape).BroadcastsInDim ⟨3, ![a, b, 1]⟩ (![0, 1] : Fin 2 → Fin 3))
    (p : Fin a) (m : Fin b) (u : Fin 1) :
    broadcastInDim ⟨3, ![a, b, 1]⟩ (![0, 1] : Fin 2 → Fin 3) h x (ix3 p m u) = x (ix2 p m) := by
  refine broadcastInDim_apply _ h x (ix3 p m u) (ix2 p m) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl

/-- [a, b, 1] spread along the last axis to [a, b, c] reads, at (p, m, f), the operand at (p, m, 0). -/
theorem bcast_ab1_abc {a b c : ℕ} (x : (⟨3, ![a, b, 1]⟩ : Shape).Idx → α)
    (h : (⟨3, ![a, b, 1]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h x (ix3 p m f) = x (ix3 p m (0 : Fin 1)) := by
  refine broadcastInDim_apply _ h x (ix3 p m f) (ix3 p m (0 : Fin 1)) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl
  | ⟨2, _⟩ =>
    show (0 : ℕ) = if (1 : ℕ) = 1 then 0 else f.val
    rw [if_pos rfl]

/-! ## The host's product of a rank-3 array with a matrix -/

section Dot

variable {a b k n : ℕ} {sr : Shape} (d : DotDims ⟨3, ![a, b, k]⟩ sr ⟨3, ![a, b, n]⟩)

/-- One contracted axis. -/
theorem dot_contr_rank (hl : d.lhsContracting = [2]) : d.contr.rank = 1 := by
  rw [d.rank_contr, hl]; rfl

/-- Its extent is the left operand's last extent. -/
theorem dot_contr_size (hl : d.lhsContracting = [2]) :
    d.contr.size ⟨0, by rw [dot_contr_rank d hl]; exact Nat.one_pos⟩ = k := by
  rw [d.size_contr 0 (by rw [hl]; exact Nat.one_pos), List.getElem_of_eq hl]
  rfl

/-- The contraction index is its one coordinate. -/
def dotEquiv (hl : d.lhsContracting = [2]) : d.contr.Idx ≃ Fin k :=
  contrEquiv1 d k (dot_contr_rank d hl) (dot_contr_size d hl)

/-- The left operand is read at row (p, m), contracted position j. -/
theorem dot_lhsIdx (hl : d.lhsContracting = [2]) (hln : d.lhsNonContracting = [0, 1]) (hlb : d.lhsBatch = [])
    (p : Fin a) (m : Fin b) (e : Fin n) (j : Fin k) :
    d.lhsIdx (ix3 p m e) ((dotEquiv d hl).symm j) = ix3 p m j := by
  funext ax
  apply Fin.ext
  match ax with
  | ⟨0, _⟩ =>
    have hnb : (0 : Fin 3) ∉ d.lhsBatch := by rw [hlb]; exact List.not_mem_nil
    have hn : (0 : Fin 3) ∈ d.lhsNonContracting := by rw [hln]; exact List.mem_cons_self
    show (d.lhsIdx (ix3 p m e) ((dotEquiv d hl).symm j) (0 : Fin 3)).val = p.val
    unfold DotDims.lhsIdx
    rw [dif_neg hnb, dif_pos hn]
    simp only [Fin.val_cast]
    have key : ∀ (t : ℕ) (ht : t < (⟨3, ![a, b, n]⟩ : Shape).rank), t = 0 → ((ix3 p m e) ⟨t, ht⟩).val = p.val :=
      fun t ht h => by subst h; rfl
    exact key _ _ (by simp [hlb, hln])
  | ⟨1, _⟩ =>
    have hnb : (1 : Fin 3) ∉ d.lhsBatch := by rw [hlb]; exact List.not_mem_nil
    have hn : (1 : Fin 3) ∈ d.lhsNonContracting := by rw [hln]; exact List.mem_cons_of_mem _ List.mem_cons_self
    show (d.lhsIdx (ix3 p m e) ((dotEquiv d hl).symm j) (1 : Fin 3)).val = m.val
    unfold DotDims.lhsIdx
    rw [dif_neg hnb, dif_pos hn]
    simp only [Fin.val_cast]
    have key : ∀ (t : ℕ) (ht : t < (⟨3, ![a, b, n]⟩ : Shape).rank), t = 1 → ((ix3 p m e) ⟨t, ht⟩).val = m.val :=
      fun t ht h => by subst h; rfl
    exact key _ _ (by simp [hlb, hln])
  | ⟨2, _⟩ =>
    show (d.lhsIdx (ix3 p m e) ((dotEquiv d hl).symm j) (2 : Fin 3)).val = j.val
    rw [d.lhsIdx_val_of_single hl]
    exact contrEquiv1_symm_val d k (dot_contr_rank d hl) (dot_contr_size d hl) j

end Dot

section DotRows

variable {a b k n : ℕ} (d : DotDims ⟨3, ![a, b, k]⟩ ⟨2, ![n, k]⟩ ⟨3, ![a, b, n]⟩)

/-- A matrix contracted on its second axis is read at row e, contracted position j. -/
theorem dot_rhsIdx_rows (hl : d.lhsContracting = [2]) (hr : d.rhsContracting = [1]) (hln : d.lhsNonContracting = [0, 1])
    (hrn : d.rhsNonContracting = [0]) (hlb : d.lhsBatch = []) (hrb : d.rhsBatch = [])
    (p : Fin a) (m : Fin b) (e : Fin n) (j : Fin k) :
    d.rhsIdx (ix3 p m e) ((dotEquiv d hl).symm j) = ix2 e j := by
  funext ax
  apply Fin.ext
  match ax with
  | ⟨0, _⟩ =>
    have hnb : (0 : Fin 2) ∉ d.rhsBatch := by rw [hrb]; exact List.not_mem_nil
    have hn : (0 : Fin 2) ∈ d.rhsNonContracting := by rw [hrn]; exact List.mem_cons_self
    show (d.rhsIdx (ix3 p m e) ((dotEquiv d hl).symm j) (0 : Fin 2)).val = e.val
    unfold DotDims.rhsIdx
    rw [dif_neg hnb, dif_pos hn]
    simp only [Fin.val_cast]
    have key : ∀ (t : ℕ) (ht : t < (⟨3, ![a, b, n]⟩ : Shape).rank), t = 2 → ((ix3 p m e) ⟨t, ht⟩).val = e.val :=
      fun t ht h => by subst h; rfl
    exact key _ _ (by simp [hlb, hln, hrn])
  | ⟨1, _⟩ =>
    show (d.rhsIdx (ix3 p m e) ((dotEquiv d hl).symm j) (1 : Fin 2)).val = j.val
    rw [d.rhsIdx_val_of_single hr]
    exact contrEquiv1_symm_val d k (dot_contr_rank d hl) (dot_contr_size d hl) j

variable {φ₁ φ₂ : FTy}

/-- The host's product contracting the last axis against a matrix's second axis, at (p, m, e). -/
theorem dotGeneral_rows (hl : d.lhsContracting = [2]) (hr : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![a, b, k]⟩ φ₁) (rhs : FVec Ideal ⟨2, ![n, k]⟩ φ₂)
    (p : Fin a) (m : Fin b) (e : Fin n) :
    FloatOps.dotGeneral d prec sched lhs rhs (ix3 p m e) = ∑ j : Fin k, lhs (ix3 p m j) * rhs (ix2 e j) := by
  rw [Ideal.dotGeneral_apply, ← Equiv.sum_comp (dotEquiv d hl).symm]
  refine Finset.sum_congr rfl fun j _ => ?_
  rw [dot_lhsIdx d hl hln hlb p m e j, dot_rhsIdx_rows d hl hr hln hrn hlb hrb p m e j]

end DotRows

section DotCols

variable {a b k n : ℕ} (d : DotDims ⟨3, ![a, b, k]⟩ ⟨2, ![k, n]⟩ ⟨3, ![a, b, n]⟩)

/-- A matrix contracted on its first axis is read at contracted position j, column e. -/
theorem dot_rhsIdx_cols (hl : d.lhsContracting = [2]) (hr : d.rhsContracting = [0]) (hln : d.lhsNonContracting = [0, 1])
    (hrn : d.rhsNonContracting = [1]) (hlb : d.lhsBatch = []) (hrb : d.rhsBatch = [])
    (p : Fin a) (m : Fin b) (e : Fin n) (j : Fin k) :
    d.rhsIdx (ix3 p m e) ((dotEquiv d hl).symm j) = ix2 j e := by
  funext ax
  apply Fin.ext
  match ax with
  | ⟨0, _⟩ =>
    show (d.rhsIdx (ix3 p m e) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_cons_self
    show (d.rhsIdx (ix3 p m e) ((dotEquiv d hl).symm j) (1 : Fin 2)).val = e.val
    unfold DotDims.rhsIdx
    rw [dif_neg hnb, dif_pos hn]
    simp only [Fin.val_cast]
    have key : ∀ (t : ℕ) (ht : t < (⟨3, ![a, b, n]⟩ : Shape).rank), t = 2 → ((ix3 p m e) ⟨t, ht⟩).val = e.val :=
      fun t ht h => by subst h; rfl
    exact key _ _ (by simp [hlb, hln, hrn])

variable {φ₁ φ₂ : FTy}

/-- The host's product contracting the last axis against a matrix's first axis, at (p, m, e). -/
theorem dotGeneral_cols (hl : d.lhsContracting = [2]) (hr : d.rhsContracting = [0]) (hln : d.lhsNonContracting = [0, 1])
    (hrn : d.rhsNonContracting = [1]) (hlb : d.lhsBatch = []) (hrb : d.rhsBatch = [])
    (prec : Option ContractPrecision) (sched : HostSchedule) (lhs : FVec Ideal ⟨3, ![a, b, k]⟩ φ₁) (rhs : FVec Ideal ⟨2, ![k, n]⟩ φ₂)
    (p : Fin a) (m : Fin b) (e : Fin n) :
    FloatOps.dotGeneral d prec sched lhs rhs (ix3 p m e) = ∑ j : Fin k, lhs (ix3 p m j) * rhs (ix2 j e) := by
  rw [Ideal.dotGeneral_apply, ← Equiv.sum_comp (dotEquiv d hl).symm]
  refine Finset.sum_congr rfl fun j _ => ?_
  rw [dot_lhsIdx d hl hln hlb p m e j, dot_rhsIdx_cols d hl hr hln hrn hlb hrb p m e j]

end DotCols

/-! ## Reductions over the last axis -/

section Reductions

variable {φ : FTy}

/-- The host's float sum over the last axis of an [a, b, c] array at (p, m): the initial value plus the sum over k of
    the operand at (p, m, k). -/
theorem hostReduceAdd_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (m : Fin b) :
    Host.reduceAdd x init h' hu (ix2 p m) = init (Shape.Idx.first hu) + ∑ k : Fin c, x (ix3 p m k) :=
  (Ideal.hostReduceAdd_single h' h x (init (Shape.Idx.first hu)) (ix2 p m)).trans
    (congrArg (init (Shape.Idx.first hu) + ·) (Finset.sum_congr rfl fun k _ => congrArg x (funext fun ax => Fin.ext (by
      match ax with
      | ⟨0, _⟩ => rfl
      | ⟨1, _⟩ => rfl
      | ⟨2, _⟩ => rfl))))

/-- The host's reduce with a maximum body over the last axis of an [a, b, c] array at (p, m): the fold of max, from the
    initial value, over k of the operand at (p, m, k). -/
theorem hostReduce_max_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (m : Fin b) :
    Host.reduce (FloatOps.maximumf (F := Ideal) (φ := φ)) x init h' hu (ix2 p m)
      = (Finset.univ : Finset (Fin c)).fold max (init (Shape.Idx.first hu)) (fun k => x (ix3 p m k)) :=
  (Host.reduce_eq_fold_single (FloatOps.maximumf (F := Ideal) (φ := φ)) x init h' h hu (ix2 p m)).trans
    (Finset.fold_congr fun k _ => congrArg x (funext fun ax => Fin.ext (by
      match ax with
      | ⟨0, _⟩ => rfl
      | ⟨1, _⟩ => rfl
      | ⟨2, _⟩ => rfl)))

end Reductions

end Cert.LibRank3Host

end
-- ==== Proof.RefNorm.lean ====
/-
  The layer-norm block of the reference, read at coordinates. The host writes it as twenty-nine operations over the
  array Y: the row sums laid back as a column, divided by 1024 (the mean); the differences squared and summed, divided
  by 1023, rooted (the deviation); g · (Y − mean) divided by (deviation + 1e-6), plus be. Given each intermediate
  array as its operation's function of its operands, the last one at (b, l, e) is the layer norm of row (b, l) at e.
-/
import proofs.«128733_j28432683499590_1_alg».proof.Proof.Gen.ReferenceIdeal
import proofs.«128733_j28432683499590_1_alg».proof.Proof.Spec
import proofs.«128733_j28432683499590_1_alg».proof.Proof.LibRank3Host

noncomputable section

open scoped BigOperators

namespace Cert.ReferenceIdeal.RefNorm

open Cert.ReferenceIdeal Cert.ReferenceIdeal.Gen Idealize.ShloMosaic Idealize.ShloMosaic.ValueIdx Cert.LibRank3Host

/-- The host's exponential at an index. -/
theorem hostExp_apply {s : Shape} {φ : FTy} (x : FVec Ideal s φ) (i : s.Idx) : Host.exp x i = Ideal.exp (x i) := rfl

/-- The host's square root at an index. -/
theorem hostSqrt_apply {s : Shape} {φ : FTy} (x : FVec Ideal s φ) (i : s.Idx) : Host.sqrt x i = Ideal.sqrt (x i) := rfl

theorem ln_read
    {Y v28 v29 v30 v36 v37 v39 v40 v43 v44 v46 v47 : FVec Ideal S8x4096x1024 .f32}
    {v24 v31 : FVec Ideal S8x4096 .f32}
    {v25 v26 v27 v32 v33 v34 v35 v41 v42 : FVec Ideal S8x4096x1 .f32}
    {c3 c4 c5 c6 c7 : FVec Ideal S_ .f32} {g be : FVec Ideal S1024 .f32} {v38 v45 : FVec Ideal S1x1x1024 .f32}
    (h3 : c3 = constant (F := Ideal) S_ .f32 0x00000000#32)
    (h24 : v24 = Host.reduceAdd (F := Ideal) Y c3 reducesTo_S8x4096x1024_S8x4096_d2 h_S_)
    (h25 : v25 = broadcastInDim S8x4096x1 ![0, 1] bcast_S8x4096_S8x4096x1_0_1 v24)
    (h4 : c4 = constant (F := Ideal) S_ .f32 0x44800000#32)
    (h26 : v26 = broadcastInDim S8x4096x1 ![] bcast_S_S8x4096x1 c4)
    (h27 : v27 = Host.divf v25 v26)
    (h28 : v28 = broadcastInDim S8x4096x1024 ![0, 1, 2] bcast_S8x4096x1_S8x4096x1024_0_1_2 v27)
    (h29 : v29 = subf Y v28)
    (h30 : v30 = mulf v29 v29)
    (h5 : c5 = constant (F := Ideal) S_ .f32 0x00000000#32)
    (h31 : v31 = Host.reduceAdd (F := Ideal) v30 c5 reducesTo_S8x4096x1024_S8x4096_d2 h_S_)
    (h32 : v32 = broadcastInDim S8x4096x1 ![0, 1] bcast_S8x4096_S8x4096x1_0_1 v31)
    (h6 : c6 = constant (F := Ideal) S_ .f32 0x447FC000#32)
    (h33 : v33 = broadcastInDim S8x4096x1 ![] bcast_S_S8x4096x1 c6)
    (h34 : v34 = Host.divf v32 v33)
    (h35 : v35 = Host.sqrt v34)
    (h36 : v36 = broadcastInDim S8x4096x1024 ![0, 1, 2] bcast_S8x4096x1_S8x4096x1024_0_1_2 v27)
    (h37 : v37 = subf Y v36)
    (h38 : v38 = broadcastInDim S1x1x1024 ![2] bcast_S1024_S1x1x1024_2 g)
    (h39 : v39 = broadcastInDim S8x4096x1024 ![0, 1, 2] bcast_S1x1x1024_S8x4096x1024_0_1_2 v38)
    (h40 : v40 = mulf v39 v37)
    (h7 : c7 = constant (F := Ideal) S_ .f32 0x358637BD#32)
    (h41 : v41 = broadcastInDim S8x4096x1 ![] bcast_S_S8x4096x1 c7)
    (h42 : v42 = addf v35 v41)
    (h43 : v43 = broadcastInDim S8x4096x1024 ![0, 1, 2] bcast_S8x4096x1_S8x4096x1024_0_1_2 v42)
    (h44 : v44 = Host.divf v40 v43)
    (h45 : v45 = broadcastInDim S1x1x1024 ![2] bcast_S1024_S1x1x1024_2 be)
    (h46 : v46 = broadcastInDim S8x4096x1024 ![0, 1, 2] bcast_S1x1x1024_S8x4096x1024_0_1_2 v45)
    (h47 : v47 = addf v44 v46)
    (b : Fin 8) (l : Fin 4096) (e : Fin 1024) :
    v47 (ix3 b l e)
      = Cert.Spec.layerNorm (fun d => Y (ix3 b l d)) (fun e => g (ix1 e)) (fun e => be (ix1 e)) e := by
  have p24 : ∀ (b : Fin 8) (l : Fin 4096), v24 (ix2 b l) = ∑ k : Fin 1024, Y (ix3 b l k) := fun b l => by
    rw [h24, hostReduceAdd_last3 Y c3 _ (by decide) _ b l, h3, constant_apply, Ideal.ofBits_zero_f32, zero_add]
  have p27 : ∀ (b : Fin 8) (l : Fin 4096) (u : Fin 1), v27 (ix3 b l u) = Cert.Spec.mean (fun k => Y (ix3 b l k)) :=
    fun b l u => by
      rw [h27, hostDivf_apply, h25, bcast_ab_ab1, p24, h26, broadcastInDim_scalar_apply, h4, constant_apply]
      rfl
  have p29 : ∀ (b : Fin 8) (l : Fin 4096) (k : Fin 1024),
      v29 (ix3 b l k) = Y (ix3 b l k) - Cert.Spec.mean (fun k => Y (ix3 b l k)) := fun b l k => by
    rw [h29, subf_apply, h28, bcast_ab1_abc, p27]
  have p31 : ∀ (b : Fin 8) (l : Fin 4096), v31 (ix2 b l)
      = ∑ k : Fin 1024, (Y (ix3 b l k) - Cert.Spec.mean (fun k => Y (ix3 b l k)))
          * (Y (ix3 b l k) - Cert.Spec.mean (fun k => Y (ix3 b l k))) := fun b l => by
    rw [h31, hostReduceAdd_last3 v30 c5 _ (by decide) _ b l, h5, constant_apply, Ideal.ofBits_zero_f32, zero_add]
    refine Finset.sum_congr rfl fun k _ => ?_
    rw [h30, mulf_apply, p29]
  have p35 : ∀ (b : Fin 8) (l : Fin 4096) (u : Fin 1), v35 (ix3 b l u) = Cert.Spec.dev (fun k => Y (ix3 b l k)) :=
    fun b l u => by
      rw [h35, hostSqrt_apply, h34, hostDivf_apply, h32, bcast_ab_ab1, p31, h33, broadcastInDim_scalar_apply, h6,
        constant_apply]
      rfl
  have p37 : v37 (ix3 b l e) = Y (ix3 b l e) - Cert.Spec.mean (fun k => Y (ix3 b l k)) := by
    rw [h37, subf_apply, h36, bcast_ab1_abc, p27]
  rw [h47, addf_apply, h44, hostDivf_apply, h40, mulf_apply, h39, h38, bcast_vec_abc, p37, h43, bcast_ab1_abc, h42,
    addf_apply, p35, h41, broadcastInDim_scalar_apply, h7, constant_apply, h46, h45, bcast_vec_abc]
  rfl

end Cert.ReferenceIdeal.RefNorm

end
-- ==== Proof.RefRead.lean ====
/-
  The reference's buffers read at coordinates, stage by stage, into the layer of Spec.lean: the projection, the landmark
  scores, the row maximum and shifted exponentials, the masked softmax weights, the read-out and residual, the first
  layer norm, the 1x1-convolution projection and leaky ReLU, the second residual and layer norm. Each stage is stated
  over the final contents of the buffers before it, so no composed term is ever built.
-/
import proofs.«128733_j28432683499590_1_alg».proof.Proof.RefAligned
import proofs.«128733_j28432683499590_1_alg».proof.Proof.RefNorm

noncomputable section

open scoped BigOperators

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.LibRank3Host Cert.ReferenceIdeal.RefNorm

variable (V : Valuation τ sig (Elt Ideal))

/-- Addition of extended reals, with the type written out (a buffer's element type is only extended reals after unfolding). -/
local infixl:65 " +ₑ " => HAdd.hAdd (α := EReal) (β := EReal) (γ := EReal)

/-- The host's product with a matrix contracted on its second axis, at (p, m, e). -/
theorem hostDot_rows {a b k n : ℕ} (d : DotDims ⟨3, ![a, b, k]⟩ ⟨2, ![n, k]⟩ ⟨3, ![a, b, n]⟩)
    (hl : d.lhsContracting = [2]) (hr : d.rhsContracting = [1]) (hln : d.lhsNonContracting = [0, 1])
    (hrn : d.rhsNonContracting = [0]) (hlb : d.lhsBatch = []) (hrb : d.rhsBatch = [])
    (lhs : FVec Ideal ⟨3, ![a, b, k]⟩ .f32) (rhs : FVec Ideal ⟨2, ![n, k]⟩ .f32) (p : Fin a) (m : Fin b) (e : Fin n) :
    Host.dotGeneral (F := Ideal) d none lhs rhs (ix3 p m e) = ∑ j : Fin k, lhs (ix3 p m j) * rhs (ix2 e j) :=
  dotGeneral_rows d hl hr hln hrn hlb hrb none .single lhs rhs p m e

/-- The host's product with a matrix contracted on its first axis, at (p, m, e). -/
theorem hostDot_cols {a b k n : ℕ} (d : DotDims ⟨3, ![a, b, k]⟩ ⟨2, ![k, n]⟩ ⟨3, ![a, b, n]⟩)
    (hl : d.lhsContracting = [2]) (hr : d.rhsContracting = [0]) (hln : d.lhsNonContracting = [0, 1])
    (hrn : d.rhsNonContracting = [1]) (hlb : d.lhsBatch = []) (hrb : d.rhsBatch = [])
    (lhs : FVec Ideal ⟨3, ![a, b, k]⟩ .f32) (rhs : FVec Ideal ⟨2, ![k, n]⟩ .f32) (p : Fin a) (m : Fin b) (e : Fin n) :
    Host.dotGeneral (F := Ideal) d none lhs rhs (ix3 p m e) = ∑ j : Fin k, lhs (ix3 p m j) * rhs (ix2 j e) :=
  dotGeneral_cols d hl hr hln hrn hlb hrb none .single lhs rhs p m e

/-- The query projection. -/
theorem r_v3 (b : Fin 8) (l : Fin 4096) (e : Fin 1024) :
    (fc V main_v3 : FVec Ideal S8x4096x1024 .f32) (ix3 b l e)
      = Cert.Spec.proj (fun e d => (fc V main_arg2 : FVec Ideal S1024x1024 .f32) (ix2 e d))
          (fun e => (fc V main_arg3 : FVec Ideal S1024 .f32) (ix1 e))
          (fun d => (fc V main_arg0 : FVec Ideal S8x4096x1024 .f32) (ix3 b l d)) e := by
  rw [e_v3, addf_apply, e_v0, hostDot_rows dot_S8x4096x1024_S1024x1024_S8x4096x1024_2_1_01_0_n_n rfl rfl rfl rfl rfl rfl, e_v2, e_v1, bcast_vec_abc]
  rfl

/-- The landmark scores. -/
theorem r_v6 (b : Fin 8) (l : Fin 4096) (a : Fin 64) :
    (fc V main_v6 : FVec Ideal S8x4096x64 .f32) (ix3 b l a)
      = Cert.Spec.scores (fun e => (fc V main_v3 : FVec Ideal S8x4096x1024 .f32) (ix3 b l e))
          (fun d a => (fc V main_arg4 : FVec Ideal S1024x64 .f32) (ix2 d a)) a := by
  rw [e_v6, hostDivf_apply, e_v4, hostDot_cols dot_S8x4096x1024_S1024x64_S8x4096x64_2_0_01_1_n_n rfl rfl rfl rfl rfl rfl, e_v5, broadcastInDim_scalar_apply, e_cst,
    constant_apply]
  rfl

/-- The row maximum. -/
theorem r_v9 (b : Fin 8) (l : Fin 4096) :
    (fc V main_v9 : FVec Ideal S8x4096 .f32) (ix2 b l)
      = Cert.Spec.rowMax (fun a => (fc V main_v6 : FVec Ideal S8x4096x64 .f32) (ix3 b l a)) := by
  rw [e_v9, maximumf_apply, e_v8, broadcastInDim_scalar_apply, e_cst_1, constant_apply, e_v7,
    hostReduce_max_last3 (a := 8) (b := 4096) (c := 64) (φ := .f32) (fc V main_v6) (fc V main_cst_0)
      reducesTo_S8x4096x64_S8x4096_d2 (by decide) h_S_ b l, e_cst_0, constant_apply]
  rfl

/-- The shifted exponentials. -/
theorem r_v13 (b : Fin 8) (l : Fin 4096) (a : Fin 64) :
    (fc V main_v13 : FVec Ideal S8x4096x64 .f32) (ix3 b l a)
      = Cert.Spec.expShift (fun a => (fc V main_v6 : FVec Ideal S8x4096x64 .f32) (ix3 b l a)) a := by
  rw [e_v13, hostExp_apply, e_v12, subf_apply, e_v11, bcast_ab1_abc, e_v10, bcast_ab_ab1, r_v9]
  rfl

/-- The masked softmax weights. -/
theorem r_v21 (b : Fin 8) (l : Fin 4096) (a : Fin 64) :
    (fc V main_v21 : FVec Ideal S8x4096x64 .f32) (ix3 b l a)
      = Cert.Spec.attnWeights (fun a => (fc V main_v6 : FVec Ideal S8x4096x64 .f32) (ix3 b l a))
          (FloatOps.sitofp (F := Ideal) .f32 ((fc V main_arg1 : IVec S8x4096 32) (ix2 b l))) a := by
  rw [e_v21, mulf_apply, e_v17, hostDivf_apply, e_v16, bcast_ab1_abc, e_v15, bcast_ab_ab1, e_v14,
    hostReduceAdd_last3 (a := 8) (b := 4096) (c := 64) (φ := .f32) (fc V main_v13) (fc V main_cst_2)
      reducesTo_S8x4096x64_S8x4096_d2 (by decide) h_S_ b l, e_cst_2, constant_apply, Ideal.ofBits_zero_f32, zero_add, e_v20,
    bcast_ab1_abc, e_v19, sitofp_apply, e_v18, bcast_ab_ab1]
  exact congrArg₂ (· * ·) (congrArg₂ Ideal.div (r_v13 V b l a) (Finset.sum_congr rfl fun k _ => r_v13 V b l k)) rfl

/-- The read-out added to the input row. -/
theorem r_v23 (b : Fin 8) (l : Fin 4096) (d : Fin 1024) :
    (fc V main_v23 : FVec Ideal S8x4096x1024 .f32) (ix3 b l d)
      = (fc V main_arg0 : FVec Ideal S8x4096x1024 .f32) (ix3 b l d)
        +ₑ Cert.Spec.readout (fun a => (fc V main_v21 : FVec Ideal S8x4096x64 .f32) (ix3 b l a))
            (fun d a => (fc V main_arg5 : FVec Ideal S1024x64 .f32) (ix2 d a)) d := by
  rw [e_v23, addf_apply, e_v22, hostDot_rows dot_S8x4096x64_S1024x64_S8x4096x1024_2_1_01_0_n_n rfl rfl rfl rfl rfl rfl]
  rfl

/-- The first layer norm. -/
theorem r_v47 (b : Fin 8) (l : Fin 4096) (e : Fin 1024) :
    (fc V main_v47 : FVec Ideal S8x4096x1024 .f32) (ix3 b l e)
      = Cert.Spec.layerNorm (fun d => (fc V main_v23 : FVec Ideal S8x4096x1024 .f32) (ix3 b l d))
          (fun e => (fc V main_arg6 : FVec Ideal S1024 .f32) (ix1 e))
          (fun e => (fc V main_arg7 : FVec Ideal S1024 .f32) (ix1 e)) e :=
  ln_read (e_cst_3 V) (e_v24 V) (e_v25 V) (e_cst_4 V) (e_v26 V) (e_v27 V) (e_v28 V) (e_v29 V) (e_v30 V) (e_cst_5 V) (e_v31 V) (e_v32 V) (e_cst_6 V) (e_v33 V) (e_v34 V) (e_v35 V) (e_v36 V) (e_v37 V) (e_v38 V) (e_v39 V) (e_v40 V) (e_cst_7 V) (e_v41 V) (e_v42 V) (e_v43 V) (e_v44 V) (e_v45 V) (e_v46 V) (e_v47 V) b l e

/-- The 1x1-convolution projection. -/
theorem r_v51 (b : Fin 8) (l : Fin 4096) (e : Fin 1024) :
    (fc V main_v51 : FVec Ideal S8x4096x1024 .f32) (ix3 b l e)
      = Cert.Spec.proj (fun e d => (fc V main_arg8 : FVec Ideal S1024x1024 .f32) (ix2 e d))
          (fun e => (fc V main_arg9 : FVec Ideal S1024 .f32) (ix1 e))
          (fun d => (fc V main_v47 : FVec Ideal S8x4096x1024 .f32) (ix3 b l d)) e := by
  rw [e_v51, addf_apply, e_v48, hostDot_rows dot_S8x4096x1024_S1024x1024_S8x4096x1024_2_1_01_0_n_n rfl rfl rfl rfl rfl rfl, e_v50, e_v49, bcast_vec_abc]
  rfl

/-- The leaky ReLU. -/
theorem r_v52 (b : Fin 8) (l : Fin 4096) (e : Fin 1024) :
    (fc V main_v52 : FVec Ideal S8x4096x1024 .f32) (ix3 b l e) = Cert.Spec.leaky ((fc V main_v51 : FVec Ideal S8x4096x1024 .f32) (ix3 b l e)) := by
  rw [e_v52, select_apply, e_call0_v1, cmpf_apply, e_call0_v0, broadcastInDim_scalar_apply, e_call0_cst, constant_apply,
    e_call0_v4, mulf_apply, e_call0_v3, broadcastInDim_scalar_apply, e_call0_v2, e_cst_8, constant_apply]
  rfl

/-- The second residual. -/
theorem r_v53 (b : Fin 8) (l : Fin 4096) (e : Fin 1024) :
    (fc V main_v53 : FVec Ideal S8x4096x1024 .f32) (ix3 b l e)
      = (fc V main_v47 : FVec Ideal S8x4096x1024 .f32) (ix3 b l e) +ₑ (fc V main_v52 : FVec Ideal S8x4096x1024 .f32) (ix3 b l e) :=
  congrFun (e_v53 V) (ix3 b l e)

/-- The second layer norm: the result. -/
theorem r_v77 (b : Fin 8) (l : Fin 4096) (e : Fin 1024) :
    (fc V main_v77 : FVec Ideal S8x4096x1024 .f32) (ix3 b l e)
      = Cert.Spec.layerNorm (fun d => (fc V main_v53 : FVec Ideal S8x4096x1024 .f32) (ix3 b l d))
          (fun e => (fc V main_arg10 : FVec Ideal S1024 .f32) (ix1 e))
          (fun e => (fc V main_arg11 : FVec Ideal S1024 .f32) (ix1 e)) e :=
  ln_read (e_cst_9 V) (e_v54 V) (e_v55 V) (e_cst_10 V) (e_v56 V) (e_v57 V) (e_v58 V) (e_v59 V) (e_v60 V) (e_cst_11 V) (e_v61 V) (e_v62 V) (e_cst_12 V) (e_v63 V) (e_v64 V) (e_v65 V) (e_v66 V) (e_v67 V) (e_v68 V) (e_v69 V) (e_v70 V) (e_cst_13 V) (e_v71 V) (e_v72 V) (e_v73 V) (e_v74 V) (e_v75 V) (e_v76 V) (e_v77 V) b l e

/-- The result buffer ends at the layer of Spec.lean applied to the argument buffers' contents. -/
theorem out_eq :
    fc V main_v77
      = Cert.Spec.G (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11)) := by
  funext i
  obtain ⟨b, l, e, rfl⟩ : ∃ (b : Fin 8) (l : Fin 4096) (e : Fin 1024), i = ix3 b l e := ⟨i 0, i 1, i 2, eq_ix3 i⟩
  have hq : (fun e => (fc V main_v3 : FVec Ideal S8x4096x1024 .f32) (ix3 b l e)) = (Cert.Spec.proj (fun e d => (fc V main_arg2 : FVec Ideal S1024x1024 .f32) (ix2 e d)) (fun e => (fc V main_arg3 : FVec Ideal S1024 .f32) (ix1 e)) (fun d => (fc V main_arg0 : FVec Ideal S8x4096x1024 .f32) (ix3 b l d))) := funext (r_v3 V b l)
  have hs : (fun a => (fc V main_v6 : FVec Ideal S8x4096x64 .f32) (ix3 b l a)) = (Cert.Spec.scores (Cert.Spec.proj (fun e d => (fc V main_arg2 : FVec Ideal S1024x1024 .f32) (ix2 e d)) (fun e => (fc V main_arg3 : FVec Ideal S1024 .f32) (ix1 e)) (fun d => (fc V main_arg0 : FVec Ideal S8x4096x1024 .f32) (ix3 b l d))) (fun d a => (fc V main_arg4 : FVec Ideal S1024x64 .f32) (ix2 d a))) :=
    funext fun a => (r_v6 V b l a).trans (by rw [hq])
  have hA : (fun a => (fc V main_v21 : FVec Ideal S8x4096x64 .f32) (ix3 b l a)) = (Cert.Spec.attnWeights (Cert.Spec.scores (Cert.Spec.proj (fun e d => (fc V main_arg2 : FVec Ideal S1024x1024 .f32) (ix2 e d)) (fun e => (fc V main_arg3 : FVec Ideal S1024 .f32) (ix1 e)) (fun d => (fc V main_arg0 : FVec Ideal S8x4096x1024 .f32) (ix3 b l d))) (fun d a => (fc V main_arg4 : FVec Ideal S1024x64 .f32) (ix2 d a))) (FloatOps.sitofp (F := Ideal) .f32 ((fc V main_arg1 : IVec S8x4096 32) (ix2 b l)))) :=
    funext fun a => (r_v21 V b l a).trans (by rw [hs])
  have hy : (fun d => (fc V main_v23 : FVec Ideal S8x4096x1024 .f32) (ix3 b l d)) = (fun d => (fc V main_arg0 : FVec Ideal S8x4096x1024 .f32) (ix3 b l d) +ₑ Cert.Spec.readout (Cert.Spec.attnWeights (Cert.Spec.scores (Cert.Spec.proj (fun e d => (fc V main_arg2 : FVec Ideal S1024x1024 .f32) (ix2 e d)) (fun e => (fc V main_arg3 : FVec Ideal S1024 .f32) (ix1 e)) (fun d => (fc V main_arg0 : FVec Ideal S8x4096x1024 .f32) (ix3 b l d))) (fun d a => (fc V main_arg4 : FVec Ideal S1024x64 .f32) (ix2 d a))) (FloatOps.sitofp (F := Ideal) .f32 ((fc V main_arg1 : IVec S8x4096 32) (ix2 b l)))) (fun d a => (fc V main_arg5 : FVec Ideal S1024x64 .f32) (ix2 d a)) d) :=
    funext fun d => (r_v23 V b l d).trans (by rw [hA])
  have hh : (fun e => (fc V main_v47 : FVec Ideal S8x4096x1024 .f32) (ix3 b l e)) = (Cert.Spec.layerNorm (fun d => (fc V main_arg0 : FVec Ideal S8x4096x1024 .f32) (ix3 b l d) +ₑ Cert.Spec.readout (Cert.Spec.attnWeights (Cert.Spec.scores (Cert.Spec.proj (fun e d => (fc V main_arg2 : FVec Ideal S1024x1024 .f32) (ix2 e d)) (fun e => (fc V main_arg3 : FVec Ideal S1024 .f32) (ix1 e)) (fun d => (fc V main_arg0 : FVec Ideal S8x4096x1024 .f32) (ix3 b l d))) (fun d a => (fc V main_arg4 : FVec Ideal S1024x64 .f32) (ix2 d a))) (FloatOps.sitofp (F := Ideal) .f32 ((fc V main_arg1 : IVec S8x4096 32) (ix2 b l)))) (fun d a => (fc V main_arg5 : FVec Ideal S1024x64 .f32) (ix2 d a)) d) (fun e => (fc V main_arg6 : FVec Ideal S1024 .f32) (ix1 e)) (fun e => (fc V main_arg7 : FVec Ideal S1024 .f32) (ix1 e))) :=
    funext fun e => (r_v47 V b l e).trans (by rw [hy])
  have ho : (fun e => (fc V main_v53 : FVec Ideal S8x4096x1024 .f32) (ix3 b l e)) = (fun e => (Cert.Spec.layerNorm (fun d => (fc V main_arg0 : FVec Ideal S8x4096x1024 .f32) (ix3 b l d) +ₑ Cert.Spec.readout (Cert.Spec.attnWeights (Cert.Spec.scores (Cert.Spec.proj (fun e d => (fc V main_arg2 : FVec Ideal S1024x1024 .f32) (ix2 e d)) (fun e => (fc V main_arg3 : FVec Ideal S1024 .f32) (ix1 e)) (fun d => (fc V main_arg0 : FVec Ideal S8x4096x1024 .f32) (ix3 b l d))) (fun d a => (fc V main_arg4 : FVec Ideal S1024x64 .f32) (ix2 d a))) (FloatOps.sitofp (F := Ideal) .f32 ((fc V main_arg1 : IVec S8x4096 32) (ix2 b l)))) (fun d a => (fc V main_arg5 : FVec Ideal S1024x64 .f32) (ix2 d a)) d) (fun e => (fc V main_arg6 : FVec Ideal S1024 .f32) (ix1 e)) (fun e => (fc V main_arg7 : FVec Ideal S1024 .f32) (ix1 e))) e +ₑ Cert.Spec.leaky (Cert.Spec.proj (fun e d => (fc V main_arg8 : FVec Ideal S1024x1024 .f32) (ix2 e d)) (fun e => (fc V main_arg9 : FVec Ideal S1024 .f32) (ix1 e)) (Cert.Spec.layerNorm (fun d => (fc V main_arg0 : FVec Ideal S8x4096x1024 .f32) (ix3 b l d) +ₑ Cert.Spec.readout (Cert.Spec.attnWeights (Cert.Spec.scores (Cert.Spec.proj (fun e d => (fc V main_arg2 : FVec Ideal S1024x1024 .f32) (ix2 e d)) (fun e => (fc V main_arg3 : FVec Ideal S1024 .f32) (ix1 e)) (fun d => (fc V main_arg0 : FVec Ideal S8x4096x1024 .f32) (ix3 b l d))) (fun d a => (fc V main_arg4 : FVec Ideal S1024x64 .f32) (ix2 d a))) (FloatOps.sitofp (F := Ideal) .f32 ((fc V main_arg1 : IVec S8x4096 32) (ix2 b l)))) (fun d a => (fc V main_arg5 : FVec Ideal S1024x64 .f32) (ix2 d a)) d) (fun e => (fc V main_arg6 : FVec Ideal S1024 .f32) (ix1 e)) (fun e => (fc V main_arg7 : FVec Ideal S1024 .f32) (ix1 e))) e)) :=
    funext fun e => (r_v53 V b l e).trans (by
      have hhe : (fc V main_v47 : FVec Ideal S8x4096x1024 .f32) (ix3 b l e) = (Cert.Spec.layerNorm (fun d => (fc V main_arg0 : FVec Ideal S8x4096x1024 .f32) (ix3 b l d) +ₑ Cert.Spec.readout (Cert.Spec.attnWeights (Cert.Spec.scores (Cert.Spec.proj (fun e d => (fc V main_arg2 : FVec Ideal S1024x1024 .f32) (ix2 e d)) (fun e => (fc V main_arg3 : FVec Ideal S1024 .f32) (ix1 e)) (fun d => (fc V main_arg0 : FVec Ideal S8x4096x1024 .f32) (ix3 b l d))) (fun d a => (fc V main_arg4 : FVec Ideal S1024x64 .f32) (ix2 d a))) (FloatOps.sitofp (F := Ideal) .f32 ((fc V main_arg1 : IVec S8x4096 32) (ix2 b l)))) (fun d a => (fc V main_arg5 : FVec Ideal S1024x64 .f32) (ix2 d a)) d) (fun e => (fc V main_arg6 : FVec Ideal S1024 .f32) (ix1 e)) (fun e => (fc V main_arg7 : FVec Ideal S1024 .f32) (ix1 e))) e := congrFun hh e
      rw [r_v52, r_v51, hh, hhe])
  rw [r_v77, ho, Cert.Spec.G_ix3, e_arg0, e_arg1, e_arg2, e_arg3, e_arg4, e_arg5, e_arg6, e_arg7, e_arg8, e_arg9, e_arg10,
    e_arg11]
  rfl

end Cert.ReferenceIdeal.RefRun

end
-- ==== Proof.RefValue.lean ====
/-
  The reference program's run, read back: every weakly fair execution of the host program ends with its result
  array holding the layer of Spec.lean applied to the argument arrays, row by row, and the arguments unchanged.
-/
import proofs.«128733_j28432683499590_1_alg».proof.Proof.Gen.ReferenceIdeal
import proofs.«128733_j28432683499590_1_alg».proof.Proof.Spec
import Idealize.ShloMosaic.Lib.StableHlo.Run
import proofs.«128733_j28432683499590_1_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono (fun _ h c =>
    ⟨(h c main_v77).trans (RefRun.out_eq (launchContents m c)),
      (h c main_arg0).trans (RefRun.e_arg0 (launchContents m c)),
      (h c main_arg1).trans (RefRun.e_arg1 (launchContents m c)),
      (h c main_arg2).trans (RefRun.e_arg2 (launchContents m c)),
      (h c main_arg3).trans (RefRun.e_arg3 (launchContents m c)),
      (h c main_arg4).trans (RefRun.e_arg4 (launchContents m c)),
      (h c main_arg5).trans (RefRun.e_arg5 (launchContents m c)),
      (h c main_arg6).trans (RefRun.e_arg6 (launchContents m c)),
      (h c main_arg7).trans (RefRun.e_arg7 (launchContents m c)),
      (h c main_arg8).trans (RefRun.e_arg8 (launchContents m c)),
      (h c main_arg9).trans (RefRun.e_arg9 (launchContents m c)),
      (h c main_arg10).trans (RefRun.e_arg10 (launchContents m c)),
      (h c main_arg11).trans (RefRun.e_arg11 (launchContents m c))⟩)
    (RefRun.run_main m ρ)

end Cert.ReferenceIdeal.RefValue

end
-- ==== Proof.lean ====
/-
  Equivalence, on the extended reals, of a fused encoder-layer kernel and its reference.

  Both programs send every token row x (1024 entries, with its mask value) through the same layer: a 1024 × 1024
  query projection, softmax attention against 64 shared landmarks (scores divided by 32 = √1024, stabilised by the row
  maximum, multiplied by the mask), a residual and a layer norm with the unbiased deviation, a 1024 × 1024 pointwise
  feed-forward map through a leaky ReLU, a second residual and layer norm (Proof/Spec.lean states the layer once, in
  the order both programs apply its operations). No row looks at another row.

  The kernel works on blocks of 512 token rows over an 8 × 8 grid, with the weight matrices transposed beforehand;
  the reference works on the whole [8, 4096, 1024] array with contractions over the last axis. On the extended
  reals a change of float format is the identity, a matrix product is the plain sum of products on either side, and a
  row reduction is the plain sum (or the fold of max) of the row, so entry by entry both results are the layer of
  Spec.lean at that row; the one arithmetic difference — the kernel multiplies the scores by 1/32 where the reference
  divides by 32 — is an identity on every extended real, so the inputs' finiteness is never used.

  Proof/KernelValue.lean reads the kernel's run (each grid point writes back the layer on its rows, the blocks tile the
  result), Proof/RefValue.lean reads the reference's run, and the claims below set the two side by side.
-/
import proofs.«128733_j28432683499590_1_alg».proof.Defs
import proofs.«128733_j28432683499590_1_alg».proof.Proof.Gen.Kernel
import proofs.«128733_j28432683499590_1_alg».proof.Proof.Gen.Kernel.Frame
import proofs.«128733_j28432683499590_1_alg».proof.Proof.Gen.KernelIdeal
import proofs.«128733_j28432683499590_1_alg».proof.Proof.Gen.KernelIdeal.Frame
import proofs.«128733_j28432683499590_1_alg».proof.Proof.Gen.ReferenceIdeal
import proofs.«128733_j28432683499590_1_alg».proof.Proof.Gen.Pre_finite_inputs
import proofs.«128733_j28432683499590_1_alg».proof.Proof.KernelValue
import proofs.«128733_j28432683499590_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories that agree on the arguments both programs end with the layer of Spec.lean applied to the
    argument arrays in their result array. -/
theorem algebraic : Cert.algebraic_KernelIdeal_ReferenceIdeal := by
  intro m ρ m' ρ' _ hagree
  refine ⟨fun c => Cert.KernelIdeal.KValue.Gk m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11⟩ := hagree c
  rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
